-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8000x4 : Shape := ⟨3, ![64, 8000, 4]⟩
abbrev S64x8000 : Shape := ⟨2, ![64, 8000]⟩
abbrev S_ : Shape := ⟨0, ![]⟩

class Facts : Prop where
  bcast_S_S64x8000x4 : S_.BroadcastsInDim S64x8000x4 (![] : Fin 0 → Fin S64x8000x4.rank)
  reducesTo_S64x8000x4_S_d0_1_2 : S64x8000x4.ReducesTo [0, 1, 2] S_
  h_S_ : 0 < S_.numel
  bcast_S_S64x8000 : S_.BroadcastsInDim S64x8000 (![] : Fin 0 → Fin S64x8000.rank)
  reducesTo_S64x8000_S_d0_1 : S64x8000.ReducesTo [0, 1] S_

variable [Facts]

def fn {F : FTy → Type} [FloatOps F] (main_arg0 : FVec F S64x8000x4 .f32) (main_arg1 : FVec F S64x8000x4 .f32) (main_arg2 : FVec F S64x8000 .f32) : IVec S_ 1 :=
  let main_v0 : FVec F S64x8000x4 .f32 := Host.absf main_arg0
  let main_cst : FVec F S_ .f32 := constant S_ .f32 0x7F800000#32
  let main_v1 : FVec F S64x8000x4 .f32 := broadcastInDim S64x8000x4 ![] bcast_S_S64x8000x4 main_cst
  let main_v2 : IVec S64x8000x4 1 := cmpf .olt main_v0 main_v1
  let main_c : IVec S_ 1 := constantI S_ 1 1#1
  let main_v3 : IVec S_ 1 := (fun x v => Host.reduce IntOp.andi x v reducesTo_S64x8000x4_S_d0_1_2 h_S_) main_v2 main_c
  let main_v4 : FVec F S64x8000x4 .f32 := Host.absf main_arg1
  let main_cst_0 : FVec F S_ .f32 := constant S_ .f32 0x7F800000#32
  let main_v5 : FVec F S64x8000x4 .f32 := broadcastInDim S64x8000x4 ![] bcast_S_S64x8000x4 main_cst_0
  let main_v6 : IVec S64x8000x4 1 := cmpf .olt main_v4 main_v5
  let main_c_1 : IVec S_ 1 := constantI S_ 1 1#1
  let main_v7 : IVec S_ 1 := (fun x v => Host.reduce IntOp.andi x v reducesTo_S64x8000x4_S_d0_1_2 h_S_) main_v6 main_c_1
  let main_v8 : IVec S_ 1 := andi main_v3 main_v7
  let main_v9 : FVec F S64x8000 .f32 := Host.absf main_arg2
  let main_cst_2 : FVec F S_ .f32 := constant S_ .f32 0x7F800000#32
  let main_v10 : FVec F S64x8000 .f32 := broadcastInDim S64x8000 ![] bcast_S_S64x8000 main_cst_2
  let main_v11 : IVec S64x8000 1 := cmpf .olt main_v9 main_v10
  let main_c_3 : IVec S_ 1 := constantI S_ 1 1#1
  let main_v12 : IVec S_ 1 := (fun x v => Host.reduce IntOp.andi x v reducesTo_S64x8000_S_d0_1 h_S_) main_v11 main_c_3
  let main_v13 : IVec S_ 1 := andi main_v8 main_v12
  main_v13
-- ==== Kernel.lean ====
abbrev S64x8000x4 : Shape := ⟨3, ![64, 8000, 4]⟩
abbrev S64x8000 : Shape := ⟨2, ![64, 8000]⟩
abbrev S24x4 : Shape := ⟨2, ![24, 4]⟩
abbrev S64x8000x1 : Shape := ⟨3, ![64, 8000, 1]⟩
abbrev S64x4x4 : Shape := ⟨3, ![64, 4, 4]⟩
abbrev S8x8000x4 : Shape := ⟨3, ![8, 8000, 4]⟩
abbrev S8x8000x1 : Shape := ⟨3, ![8, 8000, 1]⟩
abbrev S8x4x4 : Shape := ⟨3, ![8, 4, 4]⟩
abbrev S8x4 : Shape := ⟨2, ![8, 4]⟩
abbrev S8 : Shape := ⟨1, ![8]⟩
abbrev S8x1000x4 : Shape := ⟨3, ![8, 1000, 4]⟩
abbrev S8x1000x1 : Shape := ⟨3, ![8, 1000, 1]⟩
abbrev S8x1000 : Shape := ⟨2, ![8, 1000]⟩
abbrev S8x1 : Shape := ⟨2, ![8, 1]⟩
abbrev S8x1x4 : Shape := ⟨3, ![8, 1, 4]⟩
abbrev S8x4x1 : Shape := ⟨3, ![8, 4, 1]⟩
abbrev S8x1x1 : Shape := ⟨3, ![8, 1, 1]⟩
abbrev S4 : Shape := ⟨1, ![4]⟩
abbrev S1x4 : Shape := ⟨2, ![1, 4]⟩
abbrev S_ : Shape := ⟨0, ![]⟩
abbrev S24x4x1 : Shape := ⟨3, ![24, 4, 1]⟩
abbrev S24x4x2 : Shape := ⟨3, ![24, 4, 2]⟩
abbrev S64x24x4 : Shape := ⟨3, ![64, 24, 4]⟩
abbrev S64x24 : Shape := ⟨2, ![64, 24]⟩
abbrev S64 : Shape := ⟨1, ![64]⟩

abbrev nBuf : Space → Nat
  | .hbm => 38
  | .vmem => 8
  | .smem => 0
  | _ => 0

abbrev bufTy : (tb : Table) → Fin (tcTables nBuf tb) → BufTy
  | .hbm, ⟨0, _⟩ => ⟨S64x8000x4, .f32⟩
  | .hbm, ⟨1, _⟩ => ⟨S64x8000x4, .f32⟩
  | .hbm, ⟨2, _⟩ => ⟨S64x8000, .f32⟩
  | .hbm, ⟨3, _⟩ => ⟨S24x4, .i32⟩
  | .hbm, ⟨4, _⟩ => ⟨S64x8000x1, .f32⟩
  | .hbm, ⟨5, _⟩ => ⟨S64x4x4, .f32⟩
  | .hbm, ⟨6, _⟩ => ⟨S4, .i32⟩
  | .hbm, ⟨7, _⟩ => ⟨S1x4, .i32⟩
  | .hbm, ⟨8, _⟩ => ⟨S_, .i32⟩
  | .hbm, ⟨9, _⟩ => ⟨S1x4, .i32⟩
  | .hbm, ⟨10, _⟩ => ⟨S1x4, .i1⟩
  | .hbm, ⟨11, _⟩ => ⟨S_, .i32⟩
  | .hbm, ⟨12, _⟩ => ⟨S1x4, .i32⟩
  | .hbm, ⟨13, _⟩ => ⟨S1x4, .i32⟩
  | .hbm, ⟨14, _⟩ => ⟨S1x4, .i32⟩
  | .hbm, ⟨15, _⟩ => ⟨S_, .i32⟩
  | .hbm, ⟨16, _⟩ => ⟨S24x4, .i32⟩
  | .hbm, ⟨17, _⟩ => ⟨S24x4, .i1⟩
  | .hbm, ⟨18, _⟩ => ⟨S_, .i32⟩
  | .hbm, ⟨19, _⟩ => ⟨S24x4, .i32⟩
  | .hbm, ⟨20, _⟩ => ⟨S24x4, .i32⟩
  | .hbm, ⟨21, _⟩ => ⟨S24x4, .i32⟩
  | .hbm, ⟨22, _⟩ => ⟨S24x4, .i32⟩
  | .hbm, ⟨23, _⟩ => ⟨S24x4x1, .i32⟩
  | .hbm, ⟨24, _⟩ => ⟨S24x4x1, .i32⟩
  | .hbm, ⟨25, _⟩ => ⟨S24x4x2, .i32⟩
  | .hbm, ⟨26, _⟩ => ⟨S64x24x4, .f32⟩
  | .hbm, ⟨27, _⟩ => ⟨S_, .f32⟩
  | .hbm, ⟨28, _⟩ => ⟨S64x24, .f32⟩
  | .hbm, ⟨29, _⟩ => ⟨S_, .f32⟩
  | .hbm, ⟨30, _⟩ => ⟨S64x24, .f32⟩
  | .hbm, ⟨31, _⟩ => ⟨S64x24, .f32⟩
  | .hbm, ⟨32, _⟩ => ⟨S_, .f32⟩
  | .hbm, ⟨33, _⟩ => ⟨S64, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .local _ .vmem, ⟨0, _⟩ => ⟨S8x8000x4, .f32⟩
  | .local _ .vmem, ⟨1, _⟩ => ⟨S8x8000x4, .f32⟩
  | .local _ .vmem, ⟨2, _⟩ => ⟨S8x8000x4, .f32⟩
  | .local _ .vmem, ⟨3, _⟩ => ⟨S8x8000x4, .f32⟩
  | .local _ .vmem, ⟨4, _⟩ => ⟨S8x8000x1, .f32⟩
  | .local _ .vmem, ⟨5, _⟩ => ⟨S8x8000x1, .f32⟩
  | .local _ .vmem, ⟨6, _⟩ => ⟨S8x4x4, .f32⟩
  | .local _ .vmem, ⟨7, _⟩ => ⟨S8x4x4, .f32⟩
  | _, _ => ⟨S64x8000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_c_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v4 : BitVec 32 := Scalar.addi c0_i32 c8_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c1000_i32 : BitVec 32 := 1000#32
  let v20 : BitVec 32 := Scalar.muli arg5 c1000_i32
  v20
def k0_off1 (k0_t1 : Fin k0_t1_loop.trips) : Fin 3 → Nat :=
  let c0_9 : Index := 0#32
  let c0_i32 : BitVec 32 := 0#32
  let c1_i32 : BitVec 32 := 1#32
  let arg5 : BitVec 32 := Scf.iv c0_i32 c1_i32 k0_t1
  let c1000_i32 : BitVec 32 := 1000#32
  let v20 : BitVec 32 := Scalar.muli arg5 c1000_i32
  let v21 : BitVec 32 := v20
  let v22 : Index := Scalar.indexCast v21
  let c0_10 : Index := 0#32
  ![0, v22.toNat, 0]
def k0_off2 (k0_t1 : Fin k0_t1_loop.trips) : Fin 3 → Nat :=
  let c0_13 : Index := 0#32
  let c0_i32 : BitVec 32 := 0#32
  let c1_i32 : BitVec 32 := 1#32
  let arg5 : BitVec 32 := Scf.iv c0_i32 c1_i32 k0_t1
  let c1000_i32 : BitVec 32 := 1000#32
  let v20 : BitVec 32 := Scalar.muli arg5 c1000_i32
  let v21 : BitVec 32 := v20
  let v26 : Index := Scalar.indexCast v21
  let c0_14 : Index := 0#32
  ![0, v26.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x8000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x8000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x8000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x4x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S64x8000_S64x8000x1_0_1 : S64x8000.BroadcastsInDim S64x8000x1 (![0, 1] : Fin 2 → Fin S64x8000x1.rank)
  h_S8x1000x4 : 0 < S8x1000x4.numel
  h_S8x1000x1 : 0 < S8x1000x1.numel
  shapeCasts_S8x1000x1_S8x1000x1 : S8x1000x1.ShapeCasts S8x1000x1
  shapeCasts_S8x1000x1_S8x1000 : S8x1000x1.ShapeCasts S8x1000
  slices_S8x1000x4_o0_0_0_S8x1000x1 : S8x1000x4.Slices ![0, 0, 0] S8x1000x1
  reduces_S8x1000_S8 : S8x1000.Reduces [1] S8
  slices_S8x1000x4_o0_0_1_S8x1000x1 : S8x1000x4.Slices ![0, 0, 1] S8x1000x1
  slices_S8x1000x4_o0_0_2_S8x1000x1 : S8x1000x4.Slices ![0, 0, 2] S8x1000x1
  slices_S8x1000x4_o0_0_3_S8x1000x1 : S8x1000x4.Slices ![0, 0, 3] S8x1000x1
  shapeCasts_S8_S8x1 : S8.ShapeCasts S8x1
  concatenates_S8x1_S8x1_S8x1_S8x1_S8x4_d1 : Shape.Concatenates [S8x1, S8x1, S8x1, S8x1] S8x4 1
  shapeCasts_S8x4_S8x1x4 : S8x4.ShapeCasts S8x1x4
  concatenates_S8x1x4_S8x1x4_S8x1x4_S8x1x4_S8x4x4_d1 : Shape.Concatenates [S8x1x4, S8x1x4, S8x1x4, S8x1x4] S8x4x4 1
  shapeCasts_S8x4_S8x4x1 : S8x4.ShapeCasts S8x4x1
  broadcasts_S8x4x1_S8x4x4 : S8x4x1.Broadcasts S8x4x4
  shapeCasts_S8_S8x1x1 : S8.ShapeCasts S8x1x1
  broadcasts_S8x1x1_S8x4x4 : S8x1x1.Broadcasts S8x4x4
  inb_S8x4x4_S8x4x4_0_0_0 : ∀ a, (![0, 0, 0] : Fin 3 → Nat) a + S8x4x4.size a ≤ S8x4x4.size a
  h_S8x4x4 : 0 < S8x4x4.numel
  bcast_S4_S1x4_1 : S4.BroadcastsInDim S1x4 (![1] : Fin 1 → Fin S1x4.rank)
  bcast_S_S1x4 : S_.BroadcastsInDim S1x4 (![] : Fin 0 → Fin S1x4.rank)
  bcast_S_S24x4 : S_.BroadcastsInDim S24x4 (![] : Fin 0 → Fin S24x4.rank)
  bcast_S1x4_S24x4_0_1 : S1x4.BroadcastsInDim S24x4 (![0, 1] : Fin 2 → Fin S24x4.rank)
  bcast_S24x4_S24x4x1_0_1 : S24x4.BroadcastsInDim S24x4x1 (![0, 1] : Fin 2 → Fin S24x4x1.rank)
  concatenates_S24x4x1_S24x4x1_S24x4x2_d2 : Shape.Concatenates [S24x4x1, S24x4x1] S24x4x2 2
  reducesTo_S64x24x4_S64x24_d2 : S64x24x4.ReducesTo [2] S64x24
  h_S_ : 0 < S_.numel
  bcast_S_S64x24 : S_.BroadcastsInDim S64x24 (![] : Fin 0 → Fin S64x24.rank)
  reducesTo_S64x24_S64_d1 : S64x24.ReducesTo [1] S64
  reducesTo_S64_S_d0 : S64.ReducesTo [0] S_
  gather_S64x4x4_S24x4x2_S64x24x4_0_12_n_n_12_2_6411_wf : GatherDims.WF S64x4x4 S24x4x2 S64x24x4 [0] [1, 2] [] [1, 2] [] 2 ![64, 1, 1]
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S8x1000x4.size a ≤ S8x8000x4.size a
  k0_off2_inb : ∀ k0_t1 : Fin k0_t1_loop.trips, ∀ a, (k0_off2 k0_t1) a + S8x1000x1.size a ≤ S8x8000x1.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x8000x4.size a ≤ S64x8000x4.size a
  hwx0_0 : ∀ i : grid0.Coords, EltTy.bits .f32 = 32 ∨ (Rect.block (s := S64x8000x4) S8x8000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x8000x4.size a ≤ S64x8000x4.size a
  hwx0_1 : ∀ i : grid0.Coords, EltTy.bits .f32 = 32 ∨ (Rect.block (s := S64x8000x4) S8x8000x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x8000x1.size a ≤ S64x8000x1.size a
  hwx0_2 : ∀ i : grid0.Coords, EltTy.bits .f32 = 32 ∨ (Rect.block (s := S64x8000x1) S8x8000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x4x4.size a ≤ S64x4x4.size a
  hwx0_3 : ∀ i : grid0.Coords, EltTy.bits .f32 = 32 ∨ (Rect.block (s := S64x4x4) S8x4x4.size (cc0_transform_3 i) (hinb0_3 i)).WholeWords (EltTy.packing .f32)

variable [Facts₀]

def gather_S64x4x4_S24x4x2_S64x24x4_0_12_n_n_12_2_6411 : GatherDims S64x4x4 S24x4x2 S64x24x4 where
  offsetDims := [0]
  collapsedSliceDims := [1, 2]
  operandBatchingDims := []
  startIndicesBatchingDims := []
  startIndexMap := [1, 2]
  indexVectorDim := 2
  sliceSizes := ![64, 1, 1]
  wf := gather_S64x4x4_S24x4x2_S64x24x4_0_12_n_n_12_2_6411_wf

abbrev win0_0 : Pipeline.Window sig grid0 :=
  Pipeline.Window.ofSpec (Memref.whole main_arg0) S8x8000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x8000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x8000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8x4x4.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x8000x4 : Shape := ⟨3, ![64, 8000, 4]⟩
abbrev S64x8000 : Shape := ⟨2, ![64, 8000]⟩
abbrev S24x4 : Shape := ⟨2, ![24, 4]⟩
abbrev S64x8000x4x1 : Shape := ⟨4, ![64, 8000, 4, 1]⟩
abbrev S64x8000x1x4 : Shape := ⟨4, ![64, 8000, 1, 4]⟩
abbrev S_ : Shape := ⟨0, ![]⟩
abbrev S64x8000x4x4 : Shape := ⟨4, ![64, 8000, 4, 4]⟩
abbrev S64x8000x1x1 : Shape := ⟨4, ![64, 8000, 1, 1]⟩
abbrev S64x4x4 : Shape := ⟨3, ![64, 4, 4]⟩
abbrev S64 : Shape := ⟨1, ![64]⟩
abbrev S64x1x1 : Shape := ⟨3, ![64, 1, 1]⟩
abbrev S4 : Shape := ⟨1, ![4]⟩
abbrev S1x4 : Shape := ⟨2, ![1, 4]⟩
abbrev S24x4x1 : Shape := ⟨3, ![24, 4, 1]⟩
abbrev S24x4x2 : Shape := ⟨3, ![24, 4, 2]⟩
abbrev S64x24x4 : Shape := ⟨3, ![64, 24, 4]⟩
abbrev S64x24 : Shape := ⟨2, ![64, 24]⟩

abbrev nBuf : Space → Nat
  | .hbm => 99
  | .vmem => 0
  | .smem => 0
  | _ => 0

abbrev bufTy : (tb : Table) → Fin (tcTables nBuf tb) → BufTy
  | .hbm, ⟨0, _⟩ => ⟨S64x8000x4, .f32⟩
  | .hbm, ⟨1, _⟩ => ⟨S64x8000x4, .f32⟩
  | .hbm, ⟨2, _⟩ => ⟨S64x8000, .f32⟩
  | .hbm, ⟨3, _⟩ => ⟨S24x4, .i32⟩
  | .hbm, ⟨4, _⟩ => ⟨S64x8000x4x1, .f32⟩
  | .hbm, ⟨5, _⟩ => ⟨S64x8000x1x4, .f32⟩
  | .hbm, ⟨6, _⟩ => ⟨S_, .f32⟩
  | .hbm, ⟨7, _⟩ => ⟨S64x8000x1x4, .f32⟩
  | .hbm, ⟨8, _⟩ => ⟨S64x8000x1x4, .f32⟩
  | .hbm, ⟨9, _⟩ => ⟨S64x8000x4x1, .f32⟩
  | .hbm, ⟨10, _⟩ => ⟨S_, .f32⟩
  | .hbm, ⟨11, _⟩ => ⟨S64x8000x4x1, .f32⟩
  | .hbm, ⟨12, _⟩ => ⟨S64x8000x4x1, .f32⟩
  | .hbm, ⟨13, _⟩ => ⟨S64x8000x4x1, .f32⟩
  | .hbm, ⟨14, _⟩ => ⟨S64x8000x4x1, .f32⟩
  | .hbm, ⟨15, _⟩ => ⟨S64x8000x4x1, .i1⟩
  | .hbm, ⟨16, _⟩ => ⟨S64x8000x4x1, .f32⟩
  | .hbm, ⟨17, _⟩ => ⟨S64x8000x4x1, .f32⟩
  | .hbm, ⟨18, _⟩ => ⟨S64x8000x4x1, .f32⟩
  | .hbm, ⟨19, _⟩ => ⟨S64x8000x4x1, .f32⟩
  | .hbm, ⟨20, _⟩ => ⟨S64x8000x4x1, .f32⟩
  | .hbm, ⟨21, _⟩ => ⟨S64x8000x4x1, .f32⟩
  | .hbm, ⟨22, _⟩ => ⟨S64x8000x4x1, .f32⟩
  | .hbm, ⟨23, _⟩ => ⟨S64x8000x4x1, .f32⟩
  | .hbm, ⟨24, _⟩ => ⟨S64x8000x4x1, .f32⟩
  | .hbm, ⟨25, _⟩ => ⟨S64x8000x4x4, .f32⟩
  | .hbm, ⟨26, _⟩ => ⟨S64x8000x4x4, .f32⟩
  | .hbm, ⟨27, _⟩ => ⟨S64x8000x4x4, .f32⟩
  | .hbm, ⟨28, _⟩ => ⟨S_, .f32⟩
  | .hbm, ⟨29, _⟩ => ⟨S64x8000x1x4, .f32⟩
  | .hbm, ⟨30, _⟩ => ⟨S64x8000x1x4, .f32⟩
  | .hbm, ⟨31, _⟩ => ⟨S64x8000x4x1, .f32⟩
  | .hbm, ⟨32, _⟩ => ⟨S64x8000x4x1, .f32⟩
  | .hbm, ⟨33, _⟩ => ⟨S_, .f32⟩
  | .hbm, ⟨34, _⟩ => ⟨S64x8000x4x1, .f32⟩
  | .hbm, ⟨35, _⟩ => ⟨S64x8000x4x1, .f32⟩
  | .hbm, ⟨36, _⟩ => ⟨S64x8000x4x1, .f32⟩
  | .hbm, ⟨37, _⟩ => ⟨S64x8000x4x1, .f32⟩
  | .hbm, ⟨38, _⟩ => ⟨S64x8000x4x1, .i1⟩
  | .hbm, ⟨39, _⟩ => ⟨S64x8000x4x1, .f32⟩
  | .hbm, ⟨40, _⟩ => ⟨S64x8000x4x1, .f32⟩
  | .hbm, ⟨41, _⟩ => ⟨S64x8000x4x1, .f32⟩
  | .hbm, ⟨42, _⟩ => ⟨S64x8000x4x1, .f32⟩
  | .hbm, ⟨43, _⟩ => ⟨S64x8000x4x1, .f32⟩
  | .hbm, ⟨44, _⟩ => ⟨S64x8000x4x1, .f32⟩
  | .hbm, ⟨45, _⟩ => ⟨S64x8000x4x1, .f32⟩
  | .hbm, ⟨46, _⟩ => ⟨S64x8000x4x1, .f32⟩
  | .hbm, ⟨47, _⟩ => ⟨S64x8000x4x1, .f32⟩
  | .hbm, ⟨48, _⟩ => ⟨S64x8000x4x4, .f32⟩
  | .hbm, ⟨49, _⟩ => ⟨S64x8000x4x4, .f32⟩
  | .hbm, ⟨50, _⟩ => ⟨S64x8000x4x4, .f32⟩
  | .hbm, ⟨51, _⟩ => ⟨S64x8000x4x4, .f32⟩
  | .hbm, ⟨52, _⟩ => ⟨S64x8000x4x4, .f32⟩
  | .hbm, ⟨53, _⟩ => ⟨S64x8000x1x1, .f32⟩
  | .hbm, ⟨54, _⟩ => ⟨S64x8000x4x4, .f32⟩
  | .hbm, ⟨55, _⟩ => ⟨S64x8000x4x4, .f32⟩
  | .hbm, ⟨56, _⟩ => ⟨S_, .f32⟩
  | .hbm, ⟨57, _⟩ => ⟨S64x4x4, .f32⟩
  | .hbm, ⟨58, _⟩ => ⟨S_, .f32⟩
  | .hbm, ⟨59, _⟩ => ⟨S64, .f32⟩
  | .hbm, ⟨60, _⟩ => ⟨S_, .f32⟩
  | .hbm, ⟨61, _⟩ => ⟨S_, .f32⟩
  | .hbm, ⟨62, _⟩ => ⟨S64, .f32⟩
  | .hbm, ⟨63, _⟩ => ⟨S64, .f32⟩
  | .hbm, ⟨64, _⟩ => ⟨S64x1x1, .f32⟩
  | .hbm, ⟨65, _⟩ => ⟨S64x4x4, .f32⟩
  | .hbm, ⟨66, _⟩ => ⟨S64x4x4, .f32⟩
  | .hbm, ⟨67, _⟩ => ⟨S4, .i32⟩
  | .hbm, ⟨68, _⟩ => ⟨S1x4, .i32⟩
  | .hbm, ⟨69, _⟩ => ⟨S_, .i32⟩
  | .hbm, ⟨70, _⟩ => ⟨S1x4, .i32⟩
  | .hbm, ⟨71, _⟩ => ⟨S1x4, .i1⟩
  | .hbm, ⟨72, _⟩ => ⟨S_, .i32⟩
  | .hbm, ⟨73, _⟩ => ⟨S1x4, .i32⟩
  | .hbm, ⟨74, _⟩ => ⟨S1x4, .i32⟩
  | .hbm, ⟨75, _⟩ => ⟨S1x4, .i32⟩
  | .hbm, ⟨76, _⟩ => ⟨S_, .i32⟩
  | .hbm, ⟨77, _⟩ => ⟨S24x4, .i32⟩
  | .hbm, ⟨78, _⟩ => ⟨S24x4, .i1⟩
  | .hbm, ⟨79, _⟩ => ⟨S_, .i32⟩
  | .hbm, ⟨80, _⟩ => ⟨S24x4, .i32⟩
  | .hbm, ⟨81, _⟩ => ⟨S24x4, .i32⟩
  | .hbm, ⟨82, _⟩ => ⟨S24x4, .i32⟩
  | .hbm, ⟨83, _⟩ => ⟨S24x4, .i32⟩
  | .hbm, ⟨84, _⟩ => ⟨S24x4x1, .i32⟩
  | .hbm, ⟨85, _⟩ => ⟨S24x4x1, .i32⟩
  | .hbm, ⟨86, _⟩ => ⟨S24x4x2, .i32⟩
  | .hbm, ⟨87, _⟩ => ⟨S64x24x4, .f32⟩
  | .hbm, ⟨88, _⟩ => ⟨S_, .f32⟩
  | .hbm, ⟨89, _⟩ => ⟨S64x24, .f32⟩
  | .hbm, ⟨90, _⟩ => ⟨S_, .f32⟩
  | .hbm, ⟨91, _⟩ => ⟨S64x24, .f32⟩
  | .hbm, ⟨92, _⟩ => ⟨S64x24, .f32⟩
  | .hbm, ⟨93, _⟩ => ⟨S_, .f32⟩
  | .hbm, ⟨94, _⟩ => ⟨S64, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | _, _ => ⟨S64x8000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_call0_cst : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_v6 : Ref sig .tc := ⟨.hbm, 17, rfl⟩
abbrev main_call0_call0_v7 : Ref sig .tc := ⟨.hbm, 18, rfl⟩
abbrev main_call0_call0_v8 : Ref sig .tc := ⟨.hbm, 19, rfl⟩
abbrev main_call0_call0_v9 : Ref sig .tc := ⟨.hbm, 20, rfl⟩
abbrev main_call0_call0_v10 : Ref sig .tc := ⟨.hbm, 21, rfl⟩
abbrev main_call0_call0_v11 : Ref sig .tc := ⟨.hbm, 22, rfl⟩
abbrev main_call0_v1 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_call1_v0 : Ref sig .tc := ⟨.hbm, 32, rfl⟩
abbrev main_call1_call0_cst : Ref sig .tc := ⟨.hbm, 33, rfl⟩
abbrev main_call1_call0_v0 : Ref sig .tc := ⟨.hbm, 34, rfl⟩
abbrev main_call1_call0_v1 : Ref sig .tc := ⟨.hbm, 35, rfl⟩
abbrev main_call1_call0_v2 : Ref sig .tc := ⟨.hbm, 36, rfl⟩
abbrev main_call1_call0_v3 : Ref sig .tc := ⟨.hbm, 37, rfl⟩
abbrev main_call1_call0_v4 : Ref sig .tc := ⟨.hbm, 38, rfl⟩
abbrev main_call1_call0_v5 : Ref sig .tc := ⟨.hbm, 39, rfl⟩
abbrev main_call1_call0_v6 : Ref sig .tc := ⟨.hbm, 40, rfl⟩
abbrev main_call1_call0_v7 : Ref sig .tc := ⟨.hbm, 41, rfl⟩
abbrev main_call1_call0_v8 : Ref sig .tc := ⟨.hbm, 42, rfl⟩
abbrev main_call1_call0_v9 : Ref sig .tc := ⟨.hbm, 43, rfl⟩
abbrev main_call1_call0_v10 : Ref sig .tc := ⟨.hbm, 44, rfl⟩
abbrev main_call1_call0_v11 : Ref sig .tc := ⟨.hbm, 45, rfl⟩
abbrev main_call1_v1 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_cst_1 : Ref sig .tc := ⟨.hbm, 56, rfl⟩
abbrev main_v20 : Ref sig .tc := ⟨.hbm, 57, rfl⟩
abbrev main_cst_2 : Ref sig .tc := ⟨.hbm, 58, rfl⟩
abbrev main_v21 : Ref sig .tc := ⟨.hbm, 59, rfl⟩
abbrev main_cst_3 : Ref sig .tc := ⟨.hbm, 60, rfl⟩
abbrev main_call2_v0 : Ref sig .tc := ⟨.hbm, 61, rfl⟩
abbrev main_call2_v1 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_c_4 : Ref sig .tc := ⟨.hbm, 69, rfl⟩
abbrev main_v28 : Ref sig .tc := ⟨.hbm, 70, rfl⟩
abbrev main_v29 : Ref sig .tc := ⟨.hbm, 71, rfl⟩
abbrev main_c_5 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_c_6 : Ref sig .tc := ⟨.hbm, 76, rfl⟩
abbrev main_v33 : Ref sig .tc := ⟨.hbm, 77, rfl⟩
abbrev main_v34 : Ref sig .tc := ⟨.hbm, 78, rfl⟩
abbrev main_c_7 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_cst_8 : Ref sig .tc := ⟨.hbm, 88, rfl⟩
abbrev main_v43 : Ref sig .tc := ⟨.hbm, 89, rfl⟩
abbrev main_cst_9 : Ref sig .tc := ⟨.hbm, 90, rfl⟩
abbrev main_v44 : Ref sig .tc := ⟨.hbm, 91, rfl⟩
abbrev main_v45 : Ref sig .tc := ⟨.hbm, 92, rfl⟩
abbrev main_cst_10 : Ref sig .tc := ⟨.hbm, 93, rfl⟩
abbrev main_v46 : Ref sig .tc := ⟨.hbm, 94, rfl⟩
abbrev main_cst_11 : Ref sig .tc := ⟨.hbm, 95, rfl⟩
abbrev main_v47 : Ref sig .tc := ⟨.hbm, 96, rfl⟩
abbrev main_cst_12 : Ref sig .tc := ⟨.hbm, 97, rfl⟩
abbrev main_v48 : Ref sig .tc := ⟨.hbm, 98, rfl⟩

abbrev nD : Nat := 1
abbrev τ : Topo := Topo.v7x

variable {F : FTy → Type} [FloatOps F]

class Facts₀ : Prop where
  bcast_S64x8000x4_S64x8000x4x1_0_1_2 : S64x8000x4.BroadcastsInDim S64x8000x4x1 (![0, 1, 2] : Fin 3 → Fin S64x8000x4x1.rank)
  bcast_S64x8000x4_S64x8000x1x4_0_1_3 : S64x8000x4.BroadcastsInDim S64x8000x1x4 (![0, 1, 3] : Fin 3 → Fin S64x8000x1x4.rank)
  bcast_S_S64x8000x1x4 : S_.BroadcastsInDim S64x8000x1x4 (![] : Fin 0 → Fin S64x8000x1x4.rank)
  bcast_S_S64x8000x4x1 : S_.BroadcastsInDim S64x8000x4x1 (![] : Fin 0 → Fin S64x8000x4x1.rank)
  bcast_S64x8000x1x4_S64x8000x4x4_0_1_2_3 : S64x8000x1x4.BroadcastsInDim S64x8000x4x4 (![0, 1, 2, 3] : Fin 4 → Fin S64x8000x4x4.rank)
  bcast_S64x8000x4x1_S64x8000x4x4_0_1_2_3 : S64x8000x4x1.BroadcastsInDim S64x8000x4x4 (![0, 1, 2, 3] : Fin 4 → Fin S64x8000x4x4.rank)
  bcast_S64x8000_S64x8000x1x1_0_1 : S64x8000.BroadcastsInDim S64x8000x1x1 (![0, 1] : Fin 2 → Fin S64x8000x1x1.rank)
  bcast_S64x8000x1x1_S64x8000x4x4_0_1_2_3 : S64x8000x1x1.BroadcastsInDim S64x8000x4x4 (![0, 1, 2, 3] : Fin 4 → Fin S64x8000x4x4.rank)
  reducesTo_S64x8000x4x4_S64x4x4_d1 : S64x8000x4x4.ReducesTo [1] S64x4x4
  h_S_ : 0 < S_.numel
  reducesTo_S64x8000_S64_d1 : S64x8000.ReducesTo [1] S64
  bcast_S_S64 : S_.BroadcastsInDim S64 (![] : Fin 0 → Fin S64.rank)
  bcast_S64_S64x1x1_0 : S64.BroadcastsInDim S64x1x1 (![0] : Fin 1 → Fin S64x1x1.rank)
  bcast_S64x1x1_S64x4x4_0_1_2 : S64x1x1.BroadcastsInDim S64x4x4 (![0, 1, 2] : Fin 3 → Fin S64x4x4.rank)
  bcast_S4_S1x4_1 : S4.BroadcastsInDim S1x4 (![1] : Fin 1 → Fin S1x4.rank)
  bcast_S_S1x4 : S_.BroadcastsInDim S1x4 (![] : Fin 0 → Fin S1x4.rank)
  bcast_S_S24x4 : S_.BroadcastsInDim S24x4 (![] : Fin 0 → Fin S24x4.rank)
  bcast_S1x4_S24x4_0_1 : S1x4.BroadcastsInDim S24x4 (![0, 1] : Fin 2 → Fin S24x4.rank)
  bcast_S24x4_S24x4x1_0_1 : S24x4.BroadcastsInDim S24x4x1 (![0, 1] : Fin 2 → Fin S24x4x1.rank)
  concatenates_S24x4x1_S24x4x1_S24x4x2_d2 : Shape.Concatenates [S24x4x1, S24x4x1] S24x4x2 2
  reducesTo_S64x24x4_S64x24_d2 : S64x24x4.ReducesTo [2] S64x24
  bcast_S_S64x24 : S_.BroadcastsInDim S64x24 (![] : Fin 0 → Fin S64x24.rank)
  reducesTo_S64x24_S64_d1 : S64x24.ReducesTo [1] S64
  reducesTo_S64_S_d0 : S64.ReducesTo [0] S_
  gather_S64x4x4_S24x4x2_S64x24x4_0_12_n_n_12_2_6411_wf : GatherDims.WF S64x4x4 S24x4x2 S64x24x4 [0] [1, 2] [] [1, 2] [] 2 ![64, 1, 1]

variable [Facts₀]

def gather_S64x4x4_S24x4x2_S64x24x4_0_12_n_n_12_2_6411 : GatherDims S64x4x4 S24x4x2 S64x24x4 where
  offsetDims := [0]
  collapsedSliceDims := [1, 2]
  operandBatchingDims := []
  startIndicesBatchingDims := []
  startIndexMap := [1, 2]
  indexVectorDim := 2
  sliceSizes := ![64, 1, 1]
  wf := gather_S64x4x4_S24x4x2_S64x24x4_0_12_n_n_12_2_6411_wf

class Facts : Prop extends Facts₀ where

variable [Facts]
-- ==== Proof.Layout.lean ====
/-
  The layout operations of the cost kernel read at an index.

  The kernel works on blocks of 8 batch rows. Inside one chunk of 1000 frames it slices a column out of an
  [8, 1000, 4] array, drops or adds unit axes, sums over the 1000 frames, and stacks four columns (and then four
  rows) side by side. Each lemma below says which entry of its operand such an operation returns at the index
  (p, …) with p the batch row; all are instances of the general reading lemmas for slices, shape casts,
  concatenations and broadcasts, with the row-major positions compared by arithmetic.
-/
import proofs.«154880_j77919296684577_2_alg».proof.KernelIdeal
import Idealize.ShloMosaic.Lib.Pipeline.Value
import Idealize.ShloMosaic.Lib.ValueIdx
import Idealize.ShloMosaic.PureOps.Ideal.Laws

noncomputable section

open scoped BigOperators

namespace Cert.PitLoss.Layout

open Idealize.ShloMosaic Idealize.ShloMosaic.ValueIdx Cert.KernelIdeal

variable {α : Type}

/-- A coordinate on a unit axis is 0. -/
theorem fin1_val (z : Fin 1) : z.val = 0 := by have := z.isLt; omega

/-! ## Unit axes dropped and added -/

/-- [8, 1000, 1] read as [8, 1000]: entry (p, r) is entry (p, r, 0). -/
theorem cast_drop_last (x : S8x1000x1.Idx → α) (h : S8x1000x1.ShapeCasts S8x1000) (p : Fin 8) (r : Fin 1000) :
    shapeCast S8x1000 x h (ix2 p r) = x (ix3 p r (0 : Fin 1)) :=
  shapeCast_apply x h _ _ (by
    rw [Shape.rowMajor_val_three, Shape.rowMajor_val_two]
    show (p.val * 1000 + r.val) * 1 + 0 = p.val * 1000 + r.val
    omega)

/-- [8] read as [8, 1]: entry (p, 0) is entry p. -/
theorem cast_col (x : S8.Idx → α) (h : S8.ShapeCasts S8x1) (p : Fin 8) (z : Fin 1) :
    shapeCast S8x1 x h (ix2 p z) = x (ix1 p) :=
  shapeCast_apply x h _ _ (by
    have hz := fin1_val z
    rw [Shape.rowMajor_val_one, Shape.rowMajor_val_two]
    show p.val = p.val * 1 + z.val
    omega)

/-- [8, 4] read as [8, 1, 4]: entry (p, 0, j) is entry (p, j). -/
theorem cast_row (x : S8x4.Idx → α) (h : S8x4.ShapeCasts S8x1x4) (p : Fin 8) (z : Fin 1) (j : Fin 4) :
    shapeCast S8x1x4 x h (ix3 p z j) = x (ix2 p j) :=
  shapeCast_apply x h _ _ (by
    have hz := fin1_val z
    rw [Shape.rowMajor_val_two, Shape.rowMajor_val_three]
    show p.val * 4 + j.val = (p.val * 1 + z.val) * 4 + j.val
    omega)

/-- [8, 4] read as [8, 4, 1]: entry (p, i, 0) is entry (p, i). -/
theorem cast_add_last (x : S8x4.Idx → α) (h : S8x4.ShapeCasts S8x4x1) (p : Fin 8) (i : Fin 4) (z : Fin 1) :
    shapeCast S8x4x1 x h (ix3 p i z) = x (ix2 p i) :=
  shapeCast_apply x h _ _ (by
    have hz := fin1_val z
    rw [Shape.rowMajor_val_two, Shape.rowMajor_val_three]
    show p.val * 4 + i.val = (p.val * 4 + i.val) * 1 + z.val
    omega)

/-- [8] read as [8, 1, 1]: entry (p, 0, 0) is entry p. -/
theorem cast_add_two (x : S8.Idx → α) (h : S8.ShapeCasts S8x1x1) (p : Fin 8) (z z' : Fin 1) :
    shapeCast S8x1x1 x h (ix3 p z z') = x (ix1 p) :=
  shapeCast_apply x h _ _ (by
    have hz := fin1_val z
    have hz' := fin1_val z'
    rw [Shape.rowMajor_val_one, Shape.rowMajor_val_three]
    show p.val = (p.val * 1 + z.val) * 1 + z'.val
    omega)

/-! ## One column of a chunk -/

/-- Column c of an [8, 1000, 4] chunk, as an [8, 1000, 1] array: entry (p, r, 0) is entry (p, r, c). -/
theorem slice_col (c : Nat) (hc : c < 4) (x : S8x1000x4.Idx → α) (h : S8x1000x4.Slices ![0, 0, c] S8x1000x1)
    (p : Fin 8) (r : Fin 1000) (z : Fin 1) :
    extractStridedSlice S8x1000x1 ![0, 0, c] x h (ix3 p r z) = x (ix3 p r (⟨c, hc⟩ : Fin 4)) :=
  extractStridedSlice_apply _ _ _ _ _ (fun ax => by
    have hz := fin1_val z
    match ax with
    | ⟨0, _⟩ => exact (Nat.zero_add _).symm
    | ⟨1, _⟩ => exact (Nat.zero_add _).symm
    | ⟨2, _⟩ => show c = c + z.val; omega)

/-! ## Broadcasts along trailing unit axes -/

/-- [8, 4, 1] spread over a last axis of 4: entry (p, i, j) is entry (p, i, 0). -/
theorem bcast_last (x : S8x4x1.Idx → α) (h : S8x4x1.Broadcasts S8x4x4) (p : Fin 8) (i j : Fin 4) :
    broadcastTo S8x4x4 x h (ix3 p i j) = x (ix3 p i (0 : Fin 1)) := by
  refine broadcastTo_apply x h (ix3 p i j) (ix3 p i (0 : Fin 1)) fun ax => ?_
  match ax with
  | ⟨0, _⟩ => rfl
  | ⟨1, _⟩ => rfl
  | ⟨2, _⟩ => rfl

/-- [8, 1, 1] spread over two axes of 4: entry (p, i, j) is entry (p, 0, 0). -/
theorem bcast_two (x : S8x1x1.Idx → α) (h : S8x1x1.Broadcasts S8x4x4) (p : Fin 8) (i j : Fin 4) :
    broadcastTo S8x4x4 x h (ix3 p i j) = x (ix3 p (0 : Fin 1) (0 : Fin 1)) := by
  refine broadcastTo_apply x h (ix3 p i j) (ix3 p (0 : Fin 1) (0 : Fin 1)) fun ax => ?_
  match ax with
  | ⟨0, _⟩ => rfl
  | ⟨1, _⟩ => rfl
  | ⟨2, _⟩ => rfl

/-! ## The sum over a chunk's 1000 frames -/

/-- The sum over axis 1 of an [8, 1000] array at row p is the sum of its 1000 entries in that row. -/
theorem lane_sum (v : FVec Ideal S8x1000 .f32) (h : S8x1000.Reduces [1] S8) (hφ : FKind.Formats .f32)
    (hacc : (0x00000000#32 : BitVec 32) = 0x00000000#32) (p : Fin 8) :
    multiReduction .add [1] S8 v 0x00000000#32 h hφ hacc (ix1 p) = ∑ r : Fin 1000, v (ix2 p r) := by
  refine (Ideal.multiReduction_add_single v 0x00000000#32 h hφ hacc (ix1 p)).trans ?_
  refine Finset.sum_congr rfl fun r _ => congrArg v ?_
  funext ax
  match ax with
  | ⟨0, _⟩ => rfl
  | ⟨1, _⟩ => rfl

/-! ## Four columns, and four rows, side by side -/

/-- Four [8, 1] columns side by side: entry (p, j) is column j at (p, 0). -/
theorem stack_cols (x0 x1 x2 x3 : S8x1.Idx → α)
    (h : Shape.Concatenates [S8x1, S8x1, S8x1, S8x1] S8x4 1) (p : Fin 8) (j : Fin 4) :
    concatenate S8x4 1 [⟨S8x1, x0⟩, ⟨S8x1, x1⟩, ⟨S8x1, x2⟩, ⟨S8x1, x3⟩] h (ix2 p j)
      = (![x0, x1, x2, x3] j) (ix2 p (0 : Fin 1)) := by
  have hi : ∀ b : Fin S8x1.rank, b.cast (rfl : S8x1.rank = S8x4.rank) ≠ (1 : Fin S8x4.rank) →
      ((ix2 p (0 : Fin 1) : S8x1.Idx) b).val = ((ix2 p j : S8x4.Idx) (b.cast rfl)).val := fun b hb => by
    match b with
    | ⟨0, _⟩ => rfl
    | ⟨1, _⟩ => exact absurd rfl hb
  fin_cases j
  · exact concatenate_apply_piece 1 [⟨S8x1, x0⟩, ⟨S8x1, x1⟩, ⟨S8x1, x2⟩, ⟨S8x1, x3⟩] h _ 0 (by simp) S8x1 x0 rfl rfl 0 rfl (ix2 p 0) hi rfl
  · exact concatenate_apply_piece 1 [⟨S8x1, x0⟩, ⟨S8x1, x1⟩, ⟨S8x1, x2⟩, ⟨S8x1, x3⟩] h _ 1 (by simp) S8x1 x1 rfl rfl 1 rfl (ix2 p 0) hi rfl
  · exact concatenate_apply_piece 1 [⟨S8x1, x0⟩, ⟨S8x1, x1⟩, ⟨S8x1, x2⟩, ⟨S8x1, x3⟩] h _ 2 (by simp) S8x1 x2 rfl rfl 2 rfl (ix2 p 0) hi rfl
  · exact concatenate_apply_piece 1 [⟨S8x1, x0⟩, ⟨S8x1, x1⟩, ⟨S8x1, x2⟩, ⟨S8x1, x3⟩] h _ 3 (by simp) S8x1 x3 rfl rfl 3 rfl (ix2 p 0) hi rfl

/-- Four [8, 1, 4] rows stacked along the middle axis: entry (p, i, j) is row i at (p, 0, j). -/
theorem stack_rows (x0 x1 x2 x3 : S8x1x4.Idx → α)
    (h : Shape.Concatenates [S8x1x4, S8x1x4, S8x1x4, S8x1x4] S8x4x4 1)
    (p : Fin 8) (i j : Fin 4) :
    concatenate S8x4x4 1 [⟨S8x1x4, x0⟩, ⟨S8x1x4, x1⟩, ⟨S8x1x4, x2⟩, ⟨S8x1x4, x3⟩] h (ix3 p i j)
      = (![x0, x1, x2, x3] i) (ix3 p (0 : Fin 1) j) := by
  have hi : ∀ b : Fin S8x1x4.rank, b.cast (rfl : S8x1x4.rank = S8x4x4.rank) ≠ (1 : Fin S8x4x4.rank) →
      ((ix3 p (0 : Fin 1) j : S8x1x4.Idx) b).val = ((ix3 p i j : S8x4x4.Idx) (b.cast rfl)).val := fun b hb => by
    match b with
    | ⟨0, _⟩ => rfl
    | ⟨1, _⟩ => exact absurd rfl hb
    | ⟨2, _⟩ => rfl
  fin_cases i
  · exact concatenate_apply_piece 1 [⟨S8x1x4, x0⟩, ⟨S8x1x4, x1⟩, ⟨S8x1x4, x2⟩, ⟨S8x1x4, x3⟩] h _ 0 (by simp) S8x1x4 x0 rfl rfl 0 rfl (ix3 p 0 j) hi rfl
  · exact concatenate_apply_piece 1 [⟨S8x1x4, x0⟩, ⟨S8x1x4, x1⟩, ⟨S8x1x4, x2⟩, ⟨S8x1x4, x3⟩] h _ 1 (by simp) S8x1x4 x1 rfl rfl 1 rfl (ix3 p 0 j) hi rfl
  · exact concatenate_apply_piece 1 [⟨S8x1x4, x0⟩, ⟨S8x1x4, x1⟩, ⟨S8x1x4, x2⟩, ⟨S8x1x4, x3⟩] h _ 2 (by simp) S8x1x4 x2 rfl rfl 2 rfl (ix3 p 0 j) hi rfl
  · exact concatenate_apply_piece 1 [⟨S8x1x4, x0⟩, ⟨S8x1x4, x1⟩, ⟨S8x1x4, x2⟩, ⟨S8x1x4, x3⟩] h _ 3 (by simp) S8x1x4 x3 rfl rfl 3 rfl (ix3 p 0 j) hi rfl

end Cert.PitLoss.Layout

end
-- ==== Proof.Spec.lean ====
/-
  The pairwise masked binary-cross-entropy cost, as each program arranges it, over the extended reals.

  For a batch row `b`, a logit column `i` and a target column `j`, with `x = logits`, `y = targets`, `w = valid_mask`:

    log σ(x)  = -softplus(-x),   log σ(-x) = -softplus(x),   softplus(z) = max(z, 0) + log(1 + e^(-|z|))

  The reference forms, frame by frame, the loss `-(1.5·y_j·log σ(x_i) + (1 - y_j)·log σ(-x_i))`, weights it by the mask,
  sums the 8000 frames and divides by `max(1, Σ w)`  (`costRef`).
  The kernel keeps three running sums over 8 chunks of 1000 frames,
    S1 = Σ (log σ(x_i)·w)·y_j,   S2 = Σ log σ(-x_i)·w,   S3 = Σ (log σ(-x_i)·w)·y_j,
  and ends with `-(1.5·S1 + S2 - S3) / max(1, Σ w)`  (`costKer`).
  Both programs then run the same search over the 24 permutations of the four columns: the mean over the batch of
  the least, over permutations p, of the mean of cost[b, r, p(r)]; that part is not opened here.
-/
import Idealize.ShloMosaic.PureOps.Ideal
import Idealize.ShloMosaic.Lib.ValueIdx

noncomputable section

open scoped BigOperators

namespace Cert.PitLoss

open Idealize.ShloMosaic Idealize.ShloMosaic.ValueIdx

/-- logits and targets: 64 rows, 8000 frames, 4 columns. -/
abbrev SX : Shape := ⟨3, ![64, 8000, 4]⟩
/-- the mask: 64 rows, 8000 frames. -/
abbrev SM : Shape := ⟨2, ![64, 8000]⟩
/-- the cost matrix: 64 rows, 4 logit columns, 4 target columns. -/
abbrev SC : Shape := ⟨3, ![64, 4, 4]⟩

/-- `max(z, 0) + log(1 + e^(-|z|))`, with `|z| = max(z, -z)`. -/
def softplus (z : EReal) : EReal := max z 0 + Ideal.log1p (Ideal.exp (-(max z (-z))))

/-- `log σ(x)`. -/
def logSigPos (x : EReal) : EReal := -(softplus (-x))

/-- `log σ(-x)`. -/
def logSigNeg (x : EReal) : EReal := -(softplus x)

/-- The positive-class weight, 1.5, as the programs spell it. -/
def posWeight : EReal := Ideal.ofBits .f32 0x3FC00000#32

/-- The programs' 1.0. -/
def one32 : EReal := Ideal.ofBits .f32 0x3F800000#32

/-- Frame `1000·k + r` of the 8000: chunk `k`, offset `r`. -/
def frame (k : Fin 8) (r : Fin 1000) : Fin 8000 := ⟨1000 * k.val + r.val, by omega⟩

/-- The reference's cost matrix: one sum over the 8000 frames of the masked loss. -/
def costRef (x y : FVec Ideal SX .f32) (w : FVec Ideal SM .f32) : FVec Ideal SC .f32 := fun q =>
  Ideal.div
    (∑ t : Fin 8000,
      (-((posWeight * y (ix3 (q 0) t (q 2))) * logSigPos (x (ix3 (q 0) t (q 1)))
          + (one32 - y (ix3 (q 0) t (q 2))) * logSigNeg (x (ix3 (q 0) t (q 1))))) * w (ix2 (q 0) t))
    (max one32 (∑ t : Fin 8000, w (ix2 (q 0) t)))

/-- The kernel's cost matrix: three sums accumulated chunk by chunk, combined at the end. -/
def costKer (x y : FVec Ideal SX .f32) (w : FVec Ideal SM .f32) : FVec Ideal SC .f32 := fun q =>
  Ideal.div
    (-((posWeight * (∑ k : Fin 8, ∑ r : Fin 1000,
            (logSigPos (x (ix3 (q 0) (frame k r) (q 1))) * w (ix2 (q 0) (frame k r))) * y (ix3 (q 0) (frame k r) (q 2)))
          + (∑ k : Fin 8, ∑ r : Fin 1000, logSigNeg (x (ix3 (q 0) (frame k r) (q 1))) * w (ix2 (q 0) (frame k r))))
        - (∑ k : Fin 8, ∑ r : Fin 1000,
            (logSigNeg (x (ix3 (q 0) (frame k r) (q 1))) * w (ix2 (q 0) (frame k r))) * y (ix3 (q 0) (frame k r) (q 2)))))
    (max one32 (∑ k : Fin 8, ∑ r : Fin 1000, w (ix2 (q 0) (frame k r))))

/-- Every entry of an array is a real number. -/
def Finite {s : Shape} (v : FVec Ideal s .f32) : Prop := ∀ i, ∃ r : ℝ, v i = (r : EReal)

end Cert.PitLoss

end
-- ==== Proof.BlockSpec.lean ====
/-
  The cost matrix of ONE block of 8 batch rows, as the kernel computes it from the block's three inputs:
  x and y of shape [8, 8000, 4] (logits and targets) and w of shape [8, 8000, 1] (the mask with a unit last axis).

  For row p of the block, logit column i and target column j, over the 8 chunks k of 1000 frames r:
    S1 = Σ_k Σ_r (log σ(x[p, t, i]) · w[p, t, 0]) · y[p, t, j]      t = 1000·k + r
    S2 = Σ_k Σ_r  log σ(-x[p, t, i]) · w[p, t, 0]
    S3 = Σ_k Σ_r (log σ(-x[p, t, i]) · w[p, t, 0]) · y[p, t, j]
    M  = Σ_k Σ_r  w[p, t, 0]
  and the entry is  -(1.5·S1 + S2 - S3) / max(1, M).
-/
import proofs.«154880_j77919296684577_2_alg».proof.Proof.Spec

noncomputable section

open scoped BigOperators

namespace Cert.PitLoss

open Idealize.ShloMosaic Idealize.ShloMosaic.ValueIdx

/-- One block of logits or targets: 8 rows, 8000 frames, 4 columns. -/
abbrev BX : Shape := ⟨3, ![8, 8000, 4]⟩
/-- One block of the mask: 8 rows, 8000 frames, a unit axis. -/
abbrev BM : Shape := ⟨3, ![8, 8000, 1]⟩
/-- One block of the cost matrix: 8 rows, 4 by 4. -/
abbrev BC : Shape := ⟨3, ![8, 4, 4]⟩

/-- The kernel's cost matrix of one block. -/
def blockCost (x y : FVec Ideal BX .f32) (w : FVec Ideal BM .f32) : FVec Ideal BC .f32 := fun q =>
  Ideal.div
    (-((posWeight * (∑ k : Fin 8, ∑ r : Fin 1000,
            (logSigPos (x (ix3 (q 0) (frame k r) (q 1))) * w (ix3 (q 0) (frame k r) (0 : Fin 1))) * y (ix3 (q 0) (frame k r) (q 2)))
          + (∑ k : Fin 8, ∑ r : Fin 1000, logSigNeg (x (ix3 (q 0) (frame k r) (q 1))) * w (ix3 (q 0) (frame k r) (0 : Fin 1))))
        - (∑ k : Fin 8, ∑ r : Fin 1000,
            (logSigNeg (x (ix3 (q 0) (frame k r) (q 1))) * w (ix3 (q 0) (frame k r) (0 : Fin 1))) * y (ix3 (q 0) (frame k r) (q 2)))))
    (max one32 (∑ k : Fin 8, ∑ r : Fin 1000, w (ix3 (q 0) (frame k r) (0 : Fin 1))))

end Cert.PitLoss

end
-- ==== Proof.Trip.lean ====
/-
  One trip of the kernel's loop over the 8 chunks of 1000 frames.

  A trip loads three chunks of the block — logits and targets of shape [8, 1000, 4], the mask of shape [8, 1000, 1] —
  and adds to each of four running sums the chunk's contribution:
    S1[p, i, j] += Σ_r (log σ(x[p, r, i]) · w[p, r]) · y[p, r, j]
    S2[p, i]    += Σ_r  log σ(-x[p, r, i]) · w[p, r]
    S3[p, i, j] += Σ_r (log σ(-x[p, r, i]) · w[p, r]) · y[p, r, j]
    M[p]        += Σ_r  w[p, r]
  The program builds each 4 by 4 increment entry by entry: a column of a chunk is sliced out and its unit axis dropped,
  the products are summed over the 1000 frames, four such sums are set side by side as a row and four rows are stacked.
  `tripVal` is the trip as one pure function of the three loads; what the loop's trip was found to yield is `tripVal`
  of its loads; and the lemmas `trip_s1`, `trip_s2`, `trip_s3`, `trip_mask` read it at an index, over the extended reals,
  where log σ is computed as -softplus with the branch for a missing value never taken and 0 - z = -z.
-/
import proofs.«154880_j77919296684577_2_alg».proof.Proof.Gen.KernelIdeal.Frame
import proofs.«154880_j77919296684577_2_alg».proof.Proof.Layout
import proofs.«154880_j77919296684577_2_alg».proof.Proof.BlockSpec
import Idealize.ShloMosaic.Lib.Pipeline.Value

set_option maxRecDepth 16384

noncomputable section

open scoped BigOperators

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.PitLoss.Ker

open Cert.KernelIdeal Cert.KernelIdeal.Gen Cert.PitLoss Cert.PitLoss.Layout

variable {F : FTy → Type} [FloatOps F]

/-- One trip of the loop as a pure function of the chunk's three loads — logits `xl`, targets `tg`, mask `mk` —
    and the four running sums `acc`: each running sum plus its chunk's contribution. -/
def tripVal (xl tg : Vec F S8x1000x4 .f32) (mk : Vec F S8x1000x1 .f32)
    (acc : FVec F S8x4x4 .f32 × FVec F S8x4 .f32 × FVec F S8x4x4 .f32 × FVec F S8 .f32) :
    FVec F S8x4x4 .f32 × FVec F S8x4 .f32 × FVec F S8x4x4 .f32 × FVec F S8 .f32 :=
  let w := k0_pay12 mk
  let lp := k0_pay13 xl
  let a := k0_pay15 xl
  let g := k0_pay17 xl
  let b := k0_pay18 xl
  let e := k0_pay19 xl
  let ln := k0_pay20 a g b e
  (k0_pay7 acc.1 tg (k0_pay27 tg w lp) (k0_pay37 tg (k0_pay29 w lp)) (k0_pay48 tg (k0_pay39 w lp) (k0_pay43 tg w lp))
      (k0_pay50 w lp) (k0_pay54 tg w lp) (k0_pay57 tg w lp) (k0_pay59 tg),
    k0_pay8 acc.2.1 (k0_pay22 w a g b e) (k0_pay32 w (k0_pay30 a g b e)) (k0_pay41 w ln) (k0_pay52 w ln),
    k0_pay9 acc.2.2.1 tg (k0_pay28 tg w a g b e) (k0_pay38 tg w (k0_pay30 a g b e)) (k0_pay49 tg (k0_pay40 w ln) (k0_pay44 tg w ln))
      (k0_pay51 w ln) (k0_pay55 tg w ln) (k0_pay58 tg w ln) (k0_pay59 tg),
    k0_pay10 acc.2.2.2 w)

/-- What one trip of the loop yields is `tripVal` of its three loads: the chunk at the trip's offset of each input. -/
theorem tripR_eq (𝒱 : Variants) (c : Dev nD) (bd : Option 𝒱.V) (i : grid0.Coords) (arg1 : Memref sig .tc .vmem S8x8000x4 .f32) (harg1 : arg1.IsWhole) (arg2 : Memref sig .tc .vmem S8x8000x4 .f32) (harg2 : arg2.IsWhole) (arg3 : Memref sig .tc .vmem S8x8000x1 .f32) (harg3 : arg3.IsWhole) (arg4 : Memref sig .tc .vmem S8x4x4 .f32) (harg4 : arg4.IsWhole) (X_arg1 : BufTy.Contents (Elt F) arg1.view.ty) (X_arg2 : BufTy.Contents (Elt F) arg2.view.ty) (X_arg3 : BufTy.Contents (Elt F) arg3.view.ty) (k : Fin k0_t1_loop.trips) (acc : FVec F S8x4x4 .f32 × FVec F S8x4 .f32 × FVec F S8x4x4 .f32 × FVec F S8 .f32) :
    tripR_k0_t1 (F := F) 𝒱 c bd i arg1 harg1 arg2 harg2 arg3 harg3 arg4 harg4 X_arg1 X_arg2 X_arg3 k acc
      = tripVal
          (View.readAt (Elt F) arg1.view (Rect.unit (s := S8x8000x4) (k0_off1 k) S8x1000x4.size (k0_off1_inb k)).toLoadRect X_arg1)
          (View.readAt (Elt F) arg2.view (Rect.unit (s := S8x8000x4) (k0_off1 k) S8x1000x4.size (k0_off1_inb k)).toLoadRect X_arg2)
          (View.readAt (Elt F) arg3.view (Rect.unit (s := S8x8000x1) (k0_off2 k) S8x1000x1.size (k0_off2_inb k)).toLoadRect X_arg3) acc := by
  unfold tripR_k0_t1
  unfold trip_k0_t1
  dsimp only
  sl_unfold_run_names
  rfl

/-! ## One element of a chunk -/

/-- The elementwise exponential, logarithm and absolute value read at an index. -/
theorem exp_apply {s : Shape} (v : FVec Ideal s .f32) (i : s.Idx) : Idealize.ShloMosaic.exp v i = Ideal.exp (v i) := rfl
theorem log1p_apply {s : Shape} (v : FVec Ideal s .f32) (i : s.Idx) : Idealize.ShloMosaic.log1p v i = Ideal.log1p (v i) := rfl
theorem absf_apply {s : Shape} (v : FVec Ideal s .f32) (i : s.Idx) : Idealize.ShloMosaic.absf v i = max (v i) (-(v i)) := rfl
/-- A comparison of two extended reals is the order's. -/
theorem cmpf_elt (p : CmpFPredicate) (a b : EReal) : FloatOps.cmpf (F := Ideal) (φ := .f32) p a b = Ideal.cmp p a b := rfl
/-- No extended real differs from itself: the guard for a missing value never fires. -/
theorem cmp_one_self (z : EReal) : Ideal.cmp .one z z = 0#1 := by
  simp [Ideal.cmp]
/-- The zero word is 0. -/
theorem zero_word : FloatOps.ofBits (F := Ideal) .f32 0#32 = (0 : EReal) := Ideal.ofBits_zero_f32

/-- The mask chunk with its unit axis dropped: entry (p, r) is entry (p, r, 0). -/
theorem mask_elt (mk : Vec Ideal S8x1000x1 .f32) (p : Fin 8) (r : Fin 1000) :
    k0_pay12 (F := Ideal) mk (ix2 p r) = mk (ix3 p r (0 : Fin 1)) := by
  unfold k0_pay12
  rw [shapeCast_self, cast_drop_last]

/-- log σ(x), entry by entry: 0 - (max(0 - x, 0) + log(1 + e^(0 - |0 - x - 0|))) is -softplus(-x). -/
theorem lsp_elt (xl : Vec Ideal S8x1000x4 .f32) (y : S8x1000x4.Idx) :
    k0_pay13 (F := Ideal) xl y = logSigPos (xl y) := by
  unfold k0_pay13
  simp only [subf_apply, addf_apply, maximumf_apply, select_apply, cmpf_apply, broadcast_apply, exp_apply, log1p_apply,
    absf_apply, cmpf_elt, zero_word, zero_sub, sub_zero, add_zero, cmp_one_self, select_zero]
  rfl

/-- 0 - (0 - x) is x. -/
theorem x_elt (xl : Vec Ideal S8x1000x4 .f32) (y : S8x1000x4.Idx) : k0_pay14 (F := Ideal) xl y = xl y := by
  unfold k0_pay14
  simp only [subf_apply, broadcast_apply, zero_word, zero_sub, neg_neg]

/-- log σ(-x), entry by entry, assembled from its four parts: -softplus(x). -/
theorem lsn_elt (xl : Vec Ideal S8x1000x4 .f32) (y : S8x1000x4.Idx) :
    k0_pay20 (F := Ideal) (k0_pay15 xl) (k0_pay17 xl) (k0_pay18 xl) (k0_pay19 xl) y = logSigNeg (xl y) := by
  unfold k0_pay20 k0_pay15 k0_pay17 k0_pay18 k0_pay19 k0_pay16
  simp only [subf_apply, addf_apply, maximumf_apply, select_apply, cmpf_apply, broadcast_apply, exp_apply, log1p_apply,
    absf_apply, cmpf_elt, zero_word, zero_sub, sub_zero, add_zero, cmp_one_self, select_zero, x_elt]
  rfl

/-! ## The four running sums after one trip, at an index -/

/-- Picking one of four stacked pieces by a literal position. -/
theorem vec4_0 {β : Type} (x0 x1 x2 x3 : β) (h : 0 < 4) : ![x0, x1, x2, x3] (⟨0, h⟩ : Fin 4) = x0 := rfl
theorem vec4_1 {β : Type} (x0 x1 x2 x3 : β) (h : 1 < 4) : ![x0, x1, x2, x3] (⟨1, h⟩ : Fin 4) = x1 := rfl
theorem vec4_2 {β : Type} (x0 x1 x2 x3 : β) (h : 2 < 4) : ![x0, x1, x2, x3] (⟨2, h⟩ : Fin 4) = x2 := rfl
theorem vec4_3 {β : Type} (x0 x1 x2 x3 : β) (h : 3 < 4) : ![x0, x1, x2, x3] (⟨3, h⟩ : Fin 4) = x3 := rfl

/-- The mask's running sum after one trip: the sum so far plus the chunk's 1000 mask entries of row p. -/
theorem trip_mask (xl tg : Vec Ideal S8x1000x4 .f32) (mk : Vec Ideal S8x1000x1 .f32) (acc : FVec Ideal S8x4x4 .f32 × FVec Ideal S8x4 .f32 × FVec Ideal S8x4x4 .f32 × FVec Ideal S8 .f32) (p : Fin 8) :
    (tripVal (F := Ideal) xl tg mk acc).2.2.2 (ix1 p) = acc.2.2.2 (ix1 p) + ∑ r : Fin 1000, mk (ix3 p r (0 : Fin 1)) := by
  unfold tripVal
  dsimp only
  simp only [k0_pay10, addf_apply]
  rw [lane_sum]
  simp only [mask_elt]

/-- S2 after one trip: the sum so far plus Σ_r log σ(-x[p, r, i]) · w[p, r]. -/
theorem trip_s2 (xl tg : Vec Ideal S8x1000x4 .f32) (mk : Vec Ideal S8x1000x1 .f32) (acc : FVec Ideal S8x4x4 .f32 × FVec Ideal S8x4 .f32 × FVec Ideal S8x4x4 .f32 × FVec Ideal S8 .f32) (p : Fin 8) (i : Fin 4) :
    (tripVal (F := Ideal) xl tg mk acc).2.1 (ix2 p i)
      = acc.2.1 (ix2 p i) + ∑ r : Fin 1000, logSigNeg (xl (ix3 p r i)) * mk (ix3 p r (0 : Fin 1)) := by
  unfold tripVal
  dsimp only
  rcases i with ⟨i, hi⟩
  interval_cases i <;>
  · simp only [k0_pay5, k0_pay6, k0_pay7, k0_pay8, k0_pay9, k0_pay10, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59,
      addf_apply, stack_rows, stack_cols, vec4_0, vec4_1, vec4_2, vec4_3, cast_row, cast_col]
    rw [lane_sum]
    simp only [mulf_apply, cast_drop_last, slice_col 0 (by decide), slice_col 1 (by decide), slice_col 2 (by decide),
      slice_col 3 (by decide), mask_elt, lsp_elt, lsn_elt]

/-- S1 after one trip: the sum so far plus Σ_r (log σ(x[p, r, i]) · w[p, r]) · y[p, r, j]. -/
theorem trip_s1 (xl tg : Vec Ideal S8x1000x4 .f32) (mk : Vec Ideal S8x1000x1 .f32) (acc : FVec Ideal S8x4x4 .f32 × FVec Ideal S8x4 .f32 × FVec Ideal S8x4x4 .f32 × FVec Ideal S8 .f32) (p : Fin 8) (i j : Fin 4) :
    (tripVal (F := Ideal) xl tg mk acc).1 (ix3 p i j)
      = acc.1 (ix3 p i j) + ∑ r : Fin 1000, (logSigPos (xl (ix3 p r i)) * mk (ix3 p r (0 : Fin 1))) * tg (ix3 p r j) := by
  unfold tripVal
  dsimp only
  rcases i with ⟨i, hi⟩
  rcases j with ⟨j, hj⟩
  interval_cases i <;> interval_cases j <;>
  · simp only [k0_pay5, k0_pay6, k0_pay7, k0_pay8, k0_pay9, k0_pay10, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59,
      addf_apply, stack_rows, stack_cols, vec4_0, vec4_1, vec4_2, vec4_3, cast_row, cast_col]
    rw [lane_sum]
    simp only [mulf_apply, cast_drop_last, slice_col 0 (by decide), slice_col 1 (by decide), slice_col 2 (by decide),
      slice_col 3 (by decide), mask_elt, lsp_elt, lsn_elt]

/-- S3 after one trip: the sum so far plus Σ_r (log σ(-x[p, r, i]) · w[p, r]) · y[p, r, j]. -/
theorem trip_s3 (xl tg : Vec Ideal S8x1000x4 .f32) (mk : Vec Ideal S8x1000x1 .f32) (acc : FVec Ideal S8x4x4 .f32 × FVec Ideal S8x4 .f32 × FVec Ideal S8x4x4 .f32 × FVec Ideal S8 .f32) (p : Fin 8) (i j : Fin 4) :
    (tripVal (F := Ideal) xl tg mk acc).2.2.1 (ix3 p i j)
      = acc.2.2.1 (ix3 p i j) + ∑ r : Fin 1000, (logSigNeg (xl (ix3 p r i)) * mk (ix3 p r (0 : Fin 1))) * tg (ix3 p r j) := by
  unfold tripVal
  dsimp only
  rcases i with ⟨i, hi⟩
  rcases j with ⟨j, hj⟩
  interval_cases i <;> interval_cases j <;>
  · simp only [k0_pay5, k0_pay6, k0_pay7, k0_pay8, k0_pay9, k0_pay10, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59,
      addf_apply, stack_rows, stack_cols, vec4_0, vec4_1, vec4_2, vec4_3, cast_row, cast_col]
    rw [lane_sum]
    simp only [mulf_apply, cast_drop_last, slice_col 0 (by decide), slice_col 1 (by decide), slice_col 2 (by decide),
      slice_col 3 (by decide), mask_elt, lsp_elt, lsn_elt]

end Cert.PitLoss.Ker

end
-- ==== Proof.Loop.lean ====
/-
  The kernel's loop over the 8 chunks, and with it the cost matrix of one block.

  The loop starts from four arrays of zeros and runs 8 trips; trip k reads the frames 1000·k … 1000·k + 999 of the block.
  A running sum that each trip increases by that trip's contribution is, after the 8 trips, the sum of the 8
  contributions (`fold_trips`, by induction on the number of trips run). A chunk's entry (p, r, ·) is the block's entry
  (p, 1000·k + r, ·) (`load_x`, `load_w`). After the loop the kernel stores
    (0 - ((1.5 · S1 + S2) - S3)) / max(1, M)
  over the whole block, S2 spread along the last axis and M along the last two; read at (p, i, j) this is `blockCost`.
-/
import proofs.«154880_j77919296684577_2_alg».proof.Proof.Trip
import Idealize.ShloMosaic.Lib.WholeRead

set_option maxRecDepth 16384

noncomputable section

open scoped BigOperators

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.PitLoss.Ker

open Cert.KernelIdeal Cert.KernelIdeal.Gen Cert.PitLoss Cert.PitLoss.Layout

/-- The four running sums. -/
abbrev Sums : Type := FVec Ideal S8x4x4 .f32 × FVec Ideal S8x4 .f32 × FVec Ideal S8x4x4 .f32 × FVec Ideal S8 .f32

/-- The loop runs 8 trips. -/
theorem trips_eq : k0_t1_loop.trips = 8 := by decide +kernel

/-- Trip k handles chunk k. -/
def chunkOf (k : Fin k0_t1_loop.trips) : Fin 8 := ⟨k.val, trips_eq ▸ k.isLt⟩

/-- Entry (p, r, j) of trip k's chunk of a [8, 8000, 4] input is the block's entry (p, 1000·k + r, j). -/
theorem load_x (arg1 : Memref sig .tc .vmem S8x8000x4 .f32) (harg1 : arg1.IsWhole) (x0 : Vec Ideal S8x8000x4 .f32)
    (k : Fin k0_t1_loop.trips) (p : Fin 8) (r : Fin 1000) (j : Fin 4) :
    View.readAt (Elt Ideal) arg1.view (Rect.unit (s := S8x8000x4) (k0_off1 k) S8x1000x4.size (k0_off1_inb k)).toLoadRect
        (harg1.unread x0) (ix3 p r j)
      = x0 (ix3 p (frame (chunkOf k) r) j) := by
  refine (harg1.readAt_unread x0 _ _).trans (congrArg x0 (funext fun a => Fin.ext ?_))
  rw [LoadRect.idx_apply]
  match a with
  | ⟨0, _⟩ => show k0_off1 k 0 + 1 * p.val = p.val; rw [k0_off1_eq]; simp
  | ⟨1, _⟩ => show k0_off1 k 1 + 1 * r.val = 1000 * k.val + r.val; rw [k0_off1_eq]; simp
  | ⟨2, _⟩ => show k0_off1 k 2 + 1 * j.val = j.val; rw [k0_off1_eq]; simp

/-- Entry (p, r, 0) of trip k's chunk of the mask is the block's entry (p, 1000·k + r, 0). -/
theorem load_w (arg3 : Memref sig .tc .vmem S8x8000x1 .f32) (harg3 : arg3.IsWhole) (x2 : Vec Ideal S8x8000x1 .f32)
    (k : Fin k0_t1_loop.trips) (p : Fin 8) (r : Fin 1000) (z : Fin 1) :
    View.readAt (Elt Ideal) arg3.view (Rect.unit (s := S8x8000x1) (k0_off2 k) S8x1000x1.size (k0_off2_inb k)).toLoadRect
        (harg3.unread x2) (ix3 p r z)
      = x2 (ix3 p (frame (chunkOf k) r) z) := by
  refine (harg3.readAt_unread x2 _ _).trans (congrArg x2 (funext fun a => Fin.ext ?_))
  rw [LoadRect.idx_apply]
  match a with
  | ⟨0, _⟩ => show k0_off2 k 0 + 1 * p.val = p.val; rw [k0_off2_eq]; simp
  | ⟨1, _⟩ => show k0_off2 k 1 + 1 * r.val = 1000 * k.val + r.val; rw [k0_off2_eq]; simp
  | ⟨2, _⟩ => show k0_off2 k 2 + 1 * z.val = z.val; rw [k0_off2_eq]; simp

/-- A quantity that every trip increases by that trip's contribution is, after n trips, its initial value plus the
    first n contributions. -/
theorem fold_trips (𝒱 : Variants) (c : Dev nD) (bd : Option 𝒱.V) (i : grid0.Coords) (arg1 : Memref sig .tc .vmem S8x8000x4 .f32) (harg1 : arg1.IsWhole) (arg2 : Memref sig .tc .vmem S8x8000x4 .f32) (harg2 : arg2.IsWhole) (arg3 : Memref sig .tc .vmem S8x8000x1 .f32) (harg3 : arg3.IsWhole) (arg4 : Memref sig .tc .vmem S8x4x4 .f32) (harg4 : arg4.IsWhole)
    (X1 : BufTy.Contents (Elt Ideal) arg1.view.ty) (X2 : BufTy.Contents (Elt Ideal) arg2.view.ty) (X3 : BufTy.Contents (Elt Ideal) arg3.view.ty)
    (init : Sums) (proj : Sums → EReal) (inc : Fin k0_t1_loop.trips → EReal)
    (hstep : ∀ k acc, proj (tripR_k0_t1 (F := Ideal) 𝒱 c bd i arg1 harg1 arg2 harg2 arg3 harg3 arg4 harg4 X1 X2 X3 k acc) = proj acc + inc k) :
    ∀ (n : ℕ) (hn : n ≤ k0_t1_loop.trips),
      proj (st_k0_t1 (F := Ideal) 𝒱 c bd i arg1 harg1 arg2 harg2 arg3 harg3 arg4 harg4 X1 X2 X3 init n) = proj init + ∑ k : Fin n, inc (Fin.castLE hn k) := by
  intro n
  induction n with
  | zero => intro hn; simp [st_k0_t1]
  | succ n ih =>
    intro hn
    have hlt : n < k0_t1_loop.trips := hn
    have e : st_k0_t1 (F := Ideal) 𝒱 c bd i arg1 harg1 arg2 harg2 arg3 harg3 arg4 harg4 X1 X2 X3 init (n + 1)
        = tripR_k0_t1 (F := Ideal) 𝒱 c bd i arg1 harg1 arg2 harg2 arg3 harg3 arg4 harg4 X1 X2 X3 ⟨n, hlt⟩ (st_k0_t1 (F := Ideal) 𝒱 c bd i arg1 harg1 arg2 harg2 arg3 harg3 arg4 harg4 X1 X2 X3 init n) :=
      st_k0_t1_succ (F := Ideal) 𝒱 c bd i arg1 harg1 arg2 harg2 arg3 harg3 arg4 harg4 X1 X2 X3 init ⟨n, hlt⟩
    rw [e, hstep, ih (Nat.le_of_lt hlt), Fin.sum_univ_castSucc, add_assoc]
    rfl

end Cert.PitLoss.Ker

end
-- ==== Proof.Block.lean ====
/-
  The cost matrix of one block, as the kernel stores it.

  After the 8 trips the four running sums, which started at zero, hold at (p, i, j), (p, i) and p the sums over the
  8 chunks of the chunks' contributions; the kernel then stores, over the whole block,
    (0 - ((1.5 · S1 + S2) - S3)) / max(1, M),
  S2 spread along the last axis, M along the last two. Read at (p, i, j), with 0 - z = -z and 0 + z = z, this is
  the block's cost matrix `blockCost` of the block's three inputs.
-/
import proofs.«154880_j77919296684577_2_alg».proof.Proof.Loop

set_option maxRecDepth 16384

noncomputable section

open scoped BigOperators

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.PitLoss.Ker

open Cert.KernelIdeal Cert.KernelIdeal.Gen Cert.PitLoss Cert.PitLoss.Layout

/-- The trip count as the loop's bounds spell it. -/
theorem trips_word : Scf.trips (0#32) (Scalar.addi 0#32 8#32) 1#32 = 8 := trips_eq

/-- Chunk k's trip handles chunk k. -/
theorem chunkOf_castLE (h : 8 ≤ k0_t1_loop.trips) (k : Fin 8) : chunkOf (Fin.castLE h k) = k := Fin.ext rfl

/-- The running sums start at zero. -/
theorem init_s1 (q : S8x4x4.Idx) : k0_pay1 (F := Ideal) q = 0 := by
  unfold k0_pay1; exact zero_word
theorem init_s2 (q : S8x4.Idx) : k0_pay2 (F := Ideal) q = 0 := by
  unfold k0_pay2; exact zero_word
theorem init_s3 (q : S8x4x4.Idx) : k0_pay3 (F := Ideal) q = 0 := by
  unfold k0_pay3; exact zero_word
theorem init_m (q : S8.Idx) : k0_pay4 (F := Ideal) q = 0 := by
  unfold k0_pay4; exact zero_word

/-- S1 after the loop. -/
theorem final_s1 (c : Dev nD) (i : grid0.Coords) (arg1 : Memref sig .tc .vmem S8x8000x4 .f32) (harg1 : arg1.IsWhole) (arg2 : Memref sig .tc .vmem S8x8000x4 .f32) (harg2 : arg2.IsWhole) (arg3 : Memref sig .tc .vmem S8x8000x1 .f32) (harg3 : arg3.IsWhole) (arg4 : Memref sig .tc .vmem S8x4x4 .f32) (harg4 : arg4.IsWhole)
    (x0 x1 : Vec Ideal S8x8000x4 .f32) (x2 : Vec Ideal S8x8000x1 .f32) (p : Fin 8) (i' j : Fin 4) :
    (st_k0_t1 (F := Ideal) Variants.none c none i arg1 harg1 arg2 harg2 arg3 harg3 arg4 harg4 (harg1.unread x0) (harg2.unread x1) (harg3.unread x2) (k0_pay1, k0_pay2, k0_pay3, k0_pay4) 8).1 (ix3 p i' j)
      = ∑ k : Fin 8, ∑ r : Fin 1000,
          (logSigPos (x0 (ix3 p (frame k r) i')) * x2 (ix3 p (frame k r) (0 : Fin 1))) * x1 (ix3 p (frame k r) j) := by
  have h8 : 8 ≤ k0_t1_loop.trips := trips_eq.ge
  rw [fold_trips Variants.none c none i arg1 harg1 arg2 harg2 arg3 harg3 arg4 harg4 (harg1.unread x0) (harg2.unread x1) (harg3.unread x2) (k0_pay1, k0_pay2, k0_pay3, k0_pay4)
    (fun s => s.1 (ix3 p i' j))
    (fun k => ∑ r : Fin 1000, (logSigPos (x0 (ix3 p (frame (chunkOf k) r) i')) * x2 (ix3 p (frame (chunkOf k) r) (0 : Fin 1))) * x1 (ix3 p (frame (chunkOf k) r) j))
    (fun k acc => by
      rw [tripR_eq]
      refine (trip_s1 _ _ _ acc p i' j).trans (congrArg _ (Finset.sum_congr rfl fun r _ => ?_))
      rw [load_x, load_w, load_x]) 8 h8]
  simp only [init_s1, zero_add, chunkOf_castLE]

/-- S2 after the loop. -/
theorem final_s2 (c : Dev nD) (i : grid0.Coords) (arg1 : Memref sig .tc .vmem S8x8000x4 .f32) (harg1 : arg1.IsWhole) (arg2 : Memref sig .tc .vmem S8x8000x4 .f32) (harg2 : arg2.IsWhole) (arg3 : Memref sig .tc .vmem S8x8000x1 .f32) (harg3 : arg3.IsWhole) (arg4 : Memref sig .tc .vmem S8x4x4 .f32) (harg4 : arg4.IsWhole)
    (x0 x1 : Vec Ideal S8x8000x4 .f32) (x2 : Vec Ideal S8x8000x1 .f32) (p : Fin 8) (i' : Fin 4) :
    (st_k0_t1 (F := Ideal) Variants.none c none i arg1 harg1 arg2 harg2 arg3 harg3 arg4 harg4 (harg1.unread x0) (harg2.unread x1) (harg3.unread x2) (k0_pay1, k0_pay2, k0_pay3, k0_pay4) 8).2.1 (ix2 p i')
      = ∑ k : Fin 8, ∑ r : Fin 1000, logSigNeg (x0 (ix3 p (frame k r) i')) * x2 (ix3 p (frame k r) (0 : Fin 1)) := by
  have h8 : 8 ≤ k0_t1_loop.trips := trips_eq.ge
  rw [fold_trips Variants.none c none i arg1 harg1 arg2 harg2 arg3 harg3 arg4 harg4 (harg1.unread x0) (harg2.unread x1) (harg3.unread x2) (k0_pay1, k0_pay2, k0_pay3, k0_pay4)
    (fun s => s.2.1 (ix2 p i'))
    (fun k => ∑ r : Fin 1000, logSigNeg (x0 (ix3 p (frame (chunkOf k) r) i')) * x2 (ix3 p (frame (chunkOf k) r) (0 : Fin 1)))
    (fun k acc => by
      rw [tripR_eq]
      refine (trip_s2 _ _ _ acc p i').trans (congrArg _ (Finset.sum_congr rfl fun r _ => ?_))
      rw [load_x, load_w]) 8 h8]
  simp only [init_s2, zero_add, chunkOf_castLE]

/-- S3 after the loop. -/
theorem final_s3 (c : Dev nD) (i : grid0.Coords) (arg1 : Memref sig .tc .vmem S8x8000x4 .f32) (harg1 : arg1.IsWhole) (arg2 : Memref sig .tc .vmem S8x8000x4 .f32) (harg2 : arg2.IsWhole) (arg3 : Memref sig .tc .vmem S8x8000x1 .f32) (harg3 : arg3.IsWhole) (arg4 : Memref sig .tc .vmem S8x4x4 .f32) (harg4 : arg4.IsWhole)
    (x0 x1 : Vec Ideal S8x8000x4 .f32) (x2 : Vec Ideal S8x8000x1 .f32) (p : Fin 8) (i' j : Fin 4) :
    (st_k0_t1 (F := Ideal) Variants.none c none i arg1 harg1 arg2 harg2 arg3 harg3 arg4 harg4 (harg1.unread x0) (harg2.unread x1) (harg3.unread x2) (k0_pay1, k0_pay2, k0_pay3, k0_pay4) 8).2.2.1 (ix3 p i' j)
      = ∑ k : Fin 8, ∑ r : Fin 1000,
          (logSigNeg (x0 (ix3 p (frame k r) i')) * x2 (ix3 p (frame k r) (0 : Fin 1))) * x1 (ix3 p (frame k r) j) := by
  have h8 : 8 ≤ k0_t1_loop.trips := trips_eq.ge
  rw [fold_trips Variants.none c none i arg1 harg1 arg2 harg2 arg3 harg3 arg4 harg4 (harg1.unread x0) (harg2.unread x1) (harg3.unread x2) (k0_pay1, k0_pay2, k0_pay3, k0_pay4)
    (fun s => s.2.2.1 (ix3 p i' j))
    (fun k => ∑ r : Fin 1000, (logSigNeg (x0 (ix3 p (frame (chunkOf k) r) i')) * x2 (ix3 p (frame (chunkOf k) r) (0 : Fin 1))) * x1 (ix3 p (frame (chunkOf k) r) j))
    (fun k acc => by
      rw [tripR_eq]
      refine (trip_s3 _ _ _ acc p i' j).trans (congrArg _ (Finset.sum_congr rfl fun r _ => ?_))
      rw [load_x, load_w, load_x]) 8 h8]
  simp only [init_s3, zero_add, chunkOf_castLE]

/-- M after the loop. -/
theorem final_m (c : Dev nD) (i : grid0.Coords) (arg1 : Memref sig .tc .vmem S8x8000x4 .f32) (harg1 : arg1.IsWhole) (arg2 : Memref sig .tc .vmem S8x8000x4 .f32) (harg2 : arg2.IsWhole) (arg3 : Memref sig .tc .vmem S8x8000x1 .f32) (harg3 : arg3.IsWhole) (arg4 : Memref sig .tc .vmem S8x4x4 .f32) (harg4 : arg4.IsWhole)
    (x0 x1 : Vec Ideal S8x8000x4 .f32) (x2 : Vec Ideal S8x8000x1 .f32) (p : Fin 8) :
    (st_k0_t1 (F := Ideal) Variants.none c none i arg1 harg1 arg2 harg2 arg3 harg3 arg4 harg4 (harg1.unread x0) (harg2.unread x1) (harg3.unread x2) (k0_pay1, k0_pay2, k0_pay3, k0_pay4) 8).2.2.2 (ix1 p)
      = ∑ k : Fin 8, ∑ r : Fin 1000, x2 (ix3 p (frame k r) (0 : Fin 1)) := by
  have h8 : 8 ≤ k0_t1_loop.trips := trips_eq.ge
  rw [fold_trips Variants.none c none i arg1 harg1 arg2 harg2 arg3 harg3 arg4 harg4 (harg1.unread x0) (harg2.unread x1) (harg3.unread x2) (k0_pay1, k0_pay2, k0_pay3, k0_pay4)
    (fun s => s.2.2.2 (ix1 p))
    (fun k => ∑ r : Fin 1000, x2 (ix3 p (frame (chunkOf k) r) (0 : Fin 1)))
    (fun k acc => by
      rw [tripR_eq]
      refine (trip_mask _ _ _ acc p).trans (congrArg _ (Finset.sum_congr rfl fun r _ => ?_))
      rw [load_w]) 8 h8]
  simp only [init_m, zero_add, chunkOf_castLE]

/-- What the kernel leaves in the output block is the block's cost matrix. -/
theorem block_eq (c : Dev nD) (i : grid0.Coords) (arg1 : Memref sig .tc .vmem S8x8000x4 .f32) (harg1 : arg1.IsWhole) (arg2 : Memref sig .tc .vmem S8x8000x4 .f32) (harg2 : arg2.IsWhole) (arg3 : Memref sig .tc .vmem S8x8000x1 .f32) (harg3 : arg3.IsWhole) (arg4 : Memref sig .tc .vmem S8x4x4 .f32) (harg4 : arg4.IsWhole)
    (x0 x1 : Vec Ideal S8x8000x4 .f32) (x2 : Vec Ideal S8x8000x1 .f32) :
    out0_A_3 (F := Ideal) c i arg1 harg1 arg2 harg2 arg3 harg3 arg4 harg4 x0 x1 x2 = blockCost x0 x1 x2 := by
  funext q
  obtain ⟨p, i', j, rfl⟩ : ∃ (p : Fin 8) (i' j : Fin 4), q = ix3 p i' j := ⟨q 0, q 1, q 2, eq_ix3 q⟩
  unfold out0_A_3
  rw [View.read_writes_eq_canon _ _ _ (cover0_A_3 c i arg1 harg1 arg2 harg2 arg3 harg3 arg4 harg4 x0 x1 x2)]
  unfold kernelRun0_A
  dsimp only
  rw [View.canon_unit_zero (by funext a; match a with | ⟨0, _⟩ => rfl | ⟨1, _⟩ => rfl | ⟨2, _⟩ => rfl)]
  rw [trips_word]
  unfold k0_pay11
  simp only [divf_apply, subf_apply, addf_apply, mulf_apply, maximumf_apply, broadcast_apply, bcast_last, bcast_two,
    cast_add_last, cast_add_two, zero_word, zero_sub]
  rw [final_s1, final_s2, final_s3, final_m]
  rfl

end Cert.PitLoss.Ker

end
-- ==== Proof.KerArray.lean ====
/-
  From the blocks to the array: the cost array the region leaves is the cost matrix of the whole batch.

  The grid has 8 points; point `t` works on batch rows `8·t … 8·t + 7`: its block of the logits, of the targets and
  of the mask (with a unit last axis) are those rows of the arrays, and its block of the result is those rows of the
  cost array. Assuming that each point leaves in its result block the block's cost matrix (`BlockEq`), row `p` of
  block `t` of the result is the batch's cost matrix at row `8·t + p`, since the block's inputs at `(p, f, i)` are the
  arrays at `(8·t + p, f, i)` and the mask with its unit axis at `(b, f, 0)` is the mask at `(b, f)`. Every row `b` of
  the cost array lies in the block of point `b / 8`, so the blocks cover the array and it ends holding the batch's
  cost matrix everywhere.
-/
import proofs.«154880_j77919296684577_2_alg».proof.Proof.Gen.KernelIdeal.Frame
import proofs.«154880_j77919296684577_2_alg».proof.Proof.BlockSpec
import Idealize.ShloMosaic.Lib.Pipeline.Value

noncomputable section

open scoped BigOperators

namespace Cert.PitLoss.Ker

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- Row `8·t + p` of the batch: row `p` of block `t`. -/
def row (t p : Fin 8) : Fin 64 := ⟨8 * t.val + p.val, by omega⟩

/-- A block's cost is the array's cost at the block's rows, when the block's inputs are the arrays' rows. -/
theorem blockCost_at (X Y : FVec Ideal SX .f32) (W : FVec Ideal SM .f32)
    (x y : FVec Ideal BX .f32) (w : FVec Ideal BM .f32) (t : Fin 8)
    (hx : ∀ (p : Fin 8) (f : Fin 8000) (i : Fin 4), x (ix3 p f i) = X (ix3 (row t p) f i))
    (hy : ∀ (p : Fin 8) (f : Fin 8000) (i : Fin 4), y (ix3 p f i) = Y (ix3 (row t p) f i))
    (hw : ∀ (p : Fin 8) (f : Fin 8000), w (ix3 p f (0 : Fin 1)) = W (ix2 (row t p) f))
    (p : Fin 8) (i j : Fin 4) : blockCost x y w (ix3 p i j) = costKer X Y W (ix3 (row t p) i j) := by
  unfold blockCost costKer
  simp only [hx, hy, hw]

/-- The index maps of the four windows, at every point of the grid: block `t` along the batch axis, block 0 along
    the other two. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- A grid point as a number below 8. -/
def pt (t : Fin cfg0.N) : Fin 8 := ⟨t.val, by have h : cfg0.N = 8 := N_0; have := t.isLt; omega⟩

/-- Block `t` of the logits, at row `p`, reads the array at row `8·t + p`. -/
theorem iblk0_apply (c : Dev nD) (t : Fin cfg0.N) (p : Fin 8) (f : Fin 8000) (i : Fin 4) :
    (iblk m c 0 t : Vec Ideal S8x8000x4 .f32) (ix3 p f i) = V m c main_arg0 (ix3 (row (pt t) p) f i) := by
  obtain ⟨e0, e1, e2, -⟩ := idx_facts t
  unfold iblk
  rw [View.read_apply]
  show V m c main_arg0 _ = V m c main_arg0 _
  congr 1
  funext a
  apply Fin.ext
  match a with
  | ⟨0, _⟩ => show win0_0.index t (0 : Fin 3) * 8 + 1 * p.val = 8 * t.val + p.val; rw [e0]; omega
  | ⟨1, _⟩ => show win0_0.index t (1 : Fin 3) * 8000 + 1 * f.val = f.val; rw [e1]; omega
  | ⟨2, _⟩ => show win0_0.index t (2 : Fin 3) * 4 + 1 * i.val = i.val; rw [e2]; omega

/-- Block `t` of the targets, at row `p`, reads the array at row `8·t + p`. -/
theorem iblk1_apply (c : Dev nD) (t : Fin cfg0.N) (p : Fin 8) (f : Fin 8000) (i : Fin 4) :
    (iblk m c 1 t : Vec Ideal S8x8000x4 .f32) (ix3 p f i) = V m c main_arg1 (ix3 (row (pt t) p) f i) := by
  obtain ⟨-, -, -, e0, e1, e2, -⟩ := idx_facts t
  unfold iblk
  rw [View.read_apply]
  show V m c main_arg1 _ = V m c main_arg1 _
  congr 1
  funext a
  apply Fin.ext
  match a with
  | ⟨0, _⟩ => show win0_1.index t (0 : Fin 3) * 8 + 1 * p.val = 8 * t.val + p.val; rw [e0]; omega
  | ⟨1, _⟩ => show win0_1.index t (1 : Fin 3) * 8000 + 1 * f.val = f.val; rw [e1]; omega
  | ⟨2, _⟩ => show win0_1.index t (2 : Fin 3) * 4 + 1 * i.val = i.val; rw [e2]; omega

/-- Block `t` of the mask with its unit axis, at row `p`, reads that array at row `8·t + p`. -/
theorem iblk2_apply (c : Dev nD) (t : Fin cfg0.N) (p : Fin 8) (f : Fin 8000) :
    (iblk m c 2 t : Vec Ideal S8x8000x1 .f32) (ix3 p f (0 : Fin 1)) = V m c main_v0 (ix3 (row (pt t) p) f (0 : Fin 1)) := by
  obtain ⟨-, -, -, -, -, -, e0, e1, e2, -⟩ := idx_facts t
  unfold iblk
  rw [View.read_apply]
  show V m c main_v0 _ = V m c main_v0 _
  congr 1
  funext a
  apply Fin.ext
  match a with
  | ⟨0, _⟩ => show win0_2.index t (0 : Fin 3) * 8 + 1 * p.val = 8 * t.val + p.val; rw [e0]; omega
  | ⟨1, _⟩ => show win0_2.index t (1 : Fin 3) * 8000 + 1 * f.val = f.val; rw [e1]; omega
  | ⟨2, _⟩ => show win0_2.index t (2 : Fin 3) * 1 + 1 * 0 = 0; rw [e2]

/-- The region finds, in the mask's array with a unit axis, the mask broadcast along that axis. -/
theorem V_main_v0 (c : Dev nD) :
    (V m c main_v0 : S64x8000x1.Idx → EReal)
      = broadcastInDim S64x8000x1 ![0, 1] bcast_S64x8000_S64x8000x1_0_1 (m ((c : Thread nD τ).loc main_arg2)) := by
  show StableHlo.after hostOps0 (fun b => m (c, b)) (Proc.devRef .tc main_v0) = _
  after_results

/-- Read at an index: the mask at the row and the frame. -/
theorem V_main_v0_apply (c : Dev nD) (b : Fin 64) (f : Fin 8000) :
    V m c main_v0 (ix3 b f (0 : Fin 1)) = m ((c : Thread nD τ).loc main_arg2) (ix2 b f) := by
  rw [V_main_v0]
  refine broadcastInDim_apply _ _ _ _ (ix2 b f) ?_
  intro a
  match a with
  | ⟨0, _⟩ => rfl
  | ⟨1, _⟩ => rfl

/-- The hypothesis on one block: what the body leaves in the result's buffer is the block's cost matrix. -/
abbrev BlockEq : Prop :=
  ∀ (c : Dev nD) (i : grid0.Coords) (arg1 : Memref sig .tc .vmem S8x8000x4 .f32) (harg1 : arg1.IsWhole)
    (arg2 : Memref sig .tc .vmem S8x8000x4 .f32) (harg2 : arg2.IsWhole) (arg3 : Memref sig .tc .vmem S8x8000x1 .f32) (harg3 : arg3.IsWhole)
    (arg4 : Memref sig .tc .vmem S8x4x4 .f32) (harg4 : arg4.IsWhole) (x0 x1 : Vec Ideal S8x8000x4 .f32) (x2 : Vec Ideal S8x8000x1 .f32),
    Cert.KernelIdeal.Gen.out0_A_3 (F := Ideal) c i arg1 harg1 arg2 harg2 arg3 harg3 arg4 harg4 x0 x1 x2 = Cert.PitLoss.blockCost x0 x1 x2

/-- The cost matrix of the whole batch, of the arrays as launched. -/
abbrev G (c : Dev nD) : S64x4x4.Idx → EReal :=
  costKer (m ((c : Thread nD τ).loc main_arg0)) (m ((c : Thread nD τ).loc main_arg1)) (m ((c : Thread nD τ).loc main_arg2))

/-- What point `t` writes back is block `t` of the batch's cost matrix. -/
theorem flushed_eq (hblock : BlockEq) (c : Dev nD) (t : Fin cfg0.N) :
    (dats m 0 c).flushed 3 t = ((cfg0.win 3).blk t).view.read (Elt Ideal) (G m c) := by
  show (cfg0.win 3).cut (grid0.coords t) ((dats m 0 c).after 3 t) = _
  rw [after0_3]
  unfold outsAt0
  rw [hblock]
  obtain ⟨-, -, -, -, -, -, -, -, -, e0, e1, e2⟩ := idx_facts t
  refine funext fun (j : S8x4x4.Idx) => ?_
  obtain ⟨p, i, k, rfl⟩ : ∃ (p : Fin 8) (i k : Fin 4), j = ix3 p i k := ⟨j 0, j 1, j 2, eq_ix3 j⟩
  show blockCost (iblk m c 0 t) (iblk m c 1 t) (iblk m c 2 t) (ix3 p i k) = G m c (((cfg0.win 3).blk t).view.emb (ix3 p i k))
  refine (blockCost_at (m ((c : Thread nD τ).loc main_arg0)) (m ((c : Thread nD τ).loc main_arg1)) (m ((c : Thread nD τ).loc main_arg2))
    (iblk m c 0 t) (iblk m c 1 t) (iblk m c 2 t) (pt t) ?_ ?_ ?_ p i k).trans ?_
  · intro p f i; rw [iblk0_apply, V_main_arg0]
  · intro p f i; rw [iblk1_apply, V_main_arg1]
  · intro p f; rw [iblk2_apply, V_main_v0_apply]
  · refine congrArg (G m c) (funext fun a => Fin.ext ?_)
    match a with
    | ⟨0, _⟩ => show 8 * t.val + p.val = win0_3.index t (0 : Fin 3) * 8 + 1 * p.val; rw [e0]; omega
    | ⟨1, _⟩ => show i.val = win0_3.index t (1 : Fin 3) * 4 + 1 * i.val; rw [e1]; omega
    | ⟨2, _⟩ => show k.val = win0_3.index t (2 : Fin 3) * 4 + 1 * k.val; rw [e2]; omega

/-- An index of the cost array is in point `t`'s block iff each coordinate is in the block's range on its axis. -/
theorem mem_blk (t : Fin cfg0.N) (i : S64x4x4.Idx) :
    i ∈ ((cfg0.win 3).blk t).view.set ↔ ∀ a : Fin 3, win0_3.index t a * S8x4x4.size a ≤ (i a).val ∧ (i a).val < win0_3.index t a * S8x4x4.size a + S8x4x4.size a := by
  show i ∈ ((View.whole main_v1).slice (win0_3.rect t)).set ↔ _
  rw [View.set_slice_whole, Rect.mem_set_unit]
  exact Iff.rfl

/-- Every index of the cost array is in some point's block: row `b` is in block `b / 8`. -/
theorem cover (i : S64x4x4.Idx) : ∃ t : Fin cfg0.N, (cfg0.win 3).flush t = true ∧ i ∈ ((cfg0.win 3).blk t).view.set := by
  have hN : cfg0.N = 8 := N_0
  have h0 : (i 0).val < 64 := (i 0).isLt
  have h1 : (i 1).val < 4 := (i 1).isLt
  have h2 : (i 2).val < 4 := (i 2).isLt
  refine ⟨⟨(i 0).val / 8, by omega⟩, flush0_3 _, ?_⟩
  rw [mem_blk]
  obtain ⟨-, -, -, -, -, -, -, -, -, e0, e1, e2⟩ := idx_facts ⟨(i 0).val / 8, by omega⟩
  intro a
  match a with
  | ⟨0, _⟩ =>
    show win0_3.index _ (0 : Fin 3) * 8 ≤ (i 0).val ∧ (i 0).val < win0_3.index _ (0 : Fin 3) * 8 + 8
    rw [e0]; dsimp only; omega
  | ⟨1, _⟩ =>
    show win0_3.index _ (1 : Fin 3) * 4 ≤ (i 1).val ∧ (i 1).val < win0_3.index _ (1 : Fin 3) * 4 + 4
    rw [e1]; omega
  | ⟨2, _⟩ =>
    show win0_3.index _ (2 : Fin 3) * 4 ≤ (i 2).val ∧ (i 2).val < win0_3.index _ (2 : Fin 3) * 4 + 4
    rw [e2]; omega

/-- The cost array after the region: the batch's cost matrix. -/
theorem final (hblock : BlockEq) (c : Dev nD) : (dats m 0 c).arrAt 3 cfg0.N = G m c :=
  (dats m 0 c).arrAt_eq_of_cover 3 (G m c) (fun t _ => flushed_eq m hblock c t) cover

end Cert.PitLoss.Ker

end
-- ==== Proof.Tail.lean ====
/-
  The search over the 24 permutations of four columns, as one function of the cost matrix.

  Given cost[b, i, j] (64 rows, 4 logit columns, 4 target columns) the programs build two integer tables
  over (p, r), p one of the 24 permutations and r one of the 4 rows of the matrix:
    row[p, r] = r              (an iota, with the wrap-around of a negative index: r < 0 ? r + 4 : r)
    col[p, r] = perm_p(r)      (the literal table of permutations, wrapped the same way)
  pair them along a last axis of length 2, gather cost[b, row[p, r], col[p, r]], sum over r, divide by 4,
  take the least over p, sum over the 64 rows b and divide by 64.
-/
import proofs.«154880_j77919296684577_2_alg».proof.ReferenceIdeal
import Idealize.ShloMosaic.PureOps.Ideal

noncomputable section

namespace Cert.PitLoss.Ref

open Idealize.ShloMosaic Cert.ReferenceIdeal Cert.ReferenceIdeal.Facts₀

variable [Cert.ReferenceIdeal.Facts]

/-- The mean over the batch of the least, over the permutations p, of the mean over r of cost[b, r, p(r)]:
    the programs' last operations, in their order, as one term of the cost matrix. -/
def tail (cost : FVec Ideal S64x4x4 .f32) : FVec Ideal S_ .f32 :=
  -- the table of the 24 permutations of {0, 1, 2, 3}
  let c : IVec S24x4 32 := fun i => lit0 (S24x4.rowMajor i)
  -- the row indices 0 … 3, as a 1x4 table
  let v26 : IVec S4 32 := iotaInDim S4 32 0
  let v27 : IVec S1x4 32 := broadcastInDim S1x4 ![1] bcast_S4_S1x4_1 v26
  -- a negative row index wraps around: r < 0 ? r + 4 : r
  let c_4 : IVec S_ 32 := constantI S_ 32 0#32
  let v28 : IVec S1x4 32 := broadcastInDim S1x4 ![] bcast_S_S1x4 c_4
  let v29 : IVec S1x4 1 := cmpi .slt v27 v28
  let c_5 : IVec S_ 32 := constantI S_ 32 4#32
  let v30 : IVec S1x4 32 := broadcastInDim S1x4 ![] bcast_S_S1x4 c_5
  let v31 : IVec S1x4 32 := addi v27 v30
  let v32 : IVec S1x4 32 := select v29 v31 v27
  -- a negative column index wraps around the same way
  let c_6 : IVec S_ 32 := constantI S_ 32 0#32
  let v33 : IVec S24x4 32 := broadcastInDim S24x4 ![] bcast_S_S24x4 c_6
  let v34 : IVec S24x4 1 := cmpi .slt c v33
  let c_7 : IVec S_ 32 := constantI S_ 32 4#32
  let v35 : IVec S24x4 32 := broadcastInDim S24x4 ![] bcast_S_S24x4 c_7
  let v36 : IVec S24x4 32 := addi c v35
  let v37 : IVec S24x4 32 := select v34 v36 c
  -- the pairs (row, column), one per permutation and row
  let v38 : IVec S24x4 32 := broadcastInDim S24x4 ![0, 1] bcast_S1x4_S24x4_0_1 v32
  let v39 : IVec S24x4x1 32 := broadcastInDim S24x4x1 ![0, 1] bcast_S24x4_S24x4x1_0_1 v38
  let v40 : IVec S24x4x1 32 := broadcastInDim S24x4x1 ![0, 1] bcast_S24x4_S24x4x1_0_1 v37
  let v41 : IVec S24x4x2 32 := concatenate S24x4x2 2 [⟨S24x4x1, v39⟩, ⟨S24x4x1, v40⟩] concatenates_S24x4x1_S24x4x1_S24x4x2_d2
  -- cost[b, r, p(r)]
  let v42 : FVec Ideal S64x24x4 .f32 := Host.gather gather_S64x4x4_S24x4x2_S64x24x4_0_12_n_n_12_2_6411 cost v41
  -- summed over r and divided by 4
  let cst_8 : FVec Ideal S_ .f32 := constant (F := Ideal) S_ .f32 0x00000000#32
  let v43 : FVec Ideal S64x24 .f32 := Host.reduceAdd (F := Ideal) v42 cst_8 reducesTo_S64x24x4_S64x24_d2 h_S_
  let cst_9 : FVec Ideal S_ .f32 := constant (F := Ideal) S_ .f32 0x40800000#32
  let v44 : FVec Ideal S64x24 .f32 := broadcastInDim S64x24 ![] bcast_S_S64x24 cst_9
  let v45 : FVec Ideal S64x24 .f32 := Host.divf (F := Ideal) v43 v44
  -- the least over the 24 permutations, from +∞
  let cst_10 : FVec Ideal S_ .f32 := constant (F := Ideal) S_ .f32 0x7F800000#32
  let v46 : FVec Ideal S64 .f32 := Host.reduce (FloatOps.minimumf (F := Ideal)) v45 cst_10 reducesTo_S64x24_S64_d1 h_S_
  -- summed over the 64 rows and divided by 64
  let cst_11 : FVec Ideal S_ .f32 := constant (F := Ideal) S_ .f32 0x00000000#32
  let v47 : FVec Ideal S_ .f32 := Host.reduceAdd (F := Ideal) v46 cst_11 reducesTo_S64_S_d0 h_S_
  let cst_12 : FVec Ideal S_ .f32 := constant (F := Ideal) S_ .f32 0x42800000#32
  Host.divf (F := Ideal) v47 cst_12

end Cert.PitLoss.Ref

end
-- ==== Proof.KerTail.lean ====
/-
  The operations after the region are the search over the 24 permutations, applied to the cost array.

  They first build two integer tables over (permutation, row) — the row index and the permuted column index, each
  with the wrap-around of a negative index — from an iota and the literal table of the permutations; then they pair
  the tables, gather `cost[b, r, p(r)]`, average over `r`, take the least over the permutations and average over the
  batch. Read at the last operation's result, they are one function of the cost array and of the literal table; the
  other program spells the same tables and the same operations, so the function is the same.
-/
import proofs.«154880_j77919296684577_2_alg».proof.Proof.Gen.KernelIdeal.Launch
import proofs.«154880_j77919296684577_2_alg».proof.Proof.Gen.ReferenceIdeal
import proofs.«154880_j77919296684577_2_alg».proof.Proof.Tail
import Idealize.ShloMosaic.Lib.StableHlo.Run

noncomputable section

namespace Cert.PitLoss.Ker

open Cert.KernelIdeal Cert.KernelIdeal.Gen Idealize.ShloMosaic Idealize.ShloMosaic.TcCoe Idealize.SL.Sem
open Idealize.ShloMosaic.StableHlo

/-- The two programs spell the same table of the 24 permutations. -/
theorem lit_eq : ∀ i : Fin 96, Cert.KernelIdeal.lit0 i = Cert.ReferenceIdeal.lit0 i := by decide +kernel

/-- The fold of two lines run one after the other is the second's over the first's. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => rw [List.cons_append, after_cons, after_cons, ih]

/-- The operations that build the two integer tables (row indices and permuted column indices). -/
abbrev opsIdx : List (HloOp τ sig (Elt Ideal)) := (hostOps1 (F := Ideal)).take 19
/-- The operations from the pairing of the tables to the result. -/
abbrev opsVal : List (HloOp τ sig (Elt Ideal)) := (hostOps1 (F := Ideal)).drop 19

theorem hostOps1_split : (hostOps1 (F := Ideal)) = opsIdx ++ opsVal := (List.take_append_drop 19 _).symm

/-- The table of row indices `r` (with the wrap-around of a negative index), one per permutation and row. -/
def rowTab : IVec S24x4x1 32 :=
  let v2 : IVec S4 32 := iotaInDim S4 32 0
  let v3 : IVec S1x4 32 := broadcastInDim S1x4 ![1] bcast_S4_S1x4_1 v2
  let v4 : IVec S1x4 32 := broadcastInDim S1x4 ![] bcast_S_S1x4 (constantI S_ 32 0#32)
  let v5 : IVec S1x4 1 := cmpi .slt v3 v4
  let v6 : IVec S1x4 32 := broadcastInDim S1x4 ![] bcast_S_S1x4 (constantI S_ 32 4#32)
  let v7 : IVec S1x4 32 := addi v3 v6
  let v8 : IVec S1x4 32 := select v5 v7 v3
  let v14 : IVec S24x4 32 := broadcastInDim S24x4 ![0, 1] bcast_S1x4_S24x4_0_1 v8
  broadcastInDim S24x4x1 ![0, 1] bcast_S24x4_S24x4x1_0_1 v14

/-- The table of column indices `p(r)` (wrapped the same way), from the table `c` of the permutations. -/
def colTab (c : IVec S24x4 32) : IVec S24x4x1 32 :=
  let v9 : IVec S24x4 32 := broadcastInDim S24x4 ![] bcast_S_S24x4 (constantI S_ 32 0#32)
  let v10 : IVec S24x4 1 := cmpi .slt c v9
  let v11 : IVec S24x4 32 := broadcastInDim S24x4 ![] bcast_S_S24x4 (constantI S_ 32 4#32)
  let v12 : IVec S24x4 32 := addi c v11
  let v13 : IVec S24x4 32 := select v10 v12 c
  broadcastInDim S24x4x1 ![0, 1] bcast_S24x4_S24x4x1_0_1 v13

/-- From the cost matrix and the two index tables to the result: gather, mean over the rows of the matrix,
    least over the permutations, mean over the batch. -/
def valOf (cost : FVec Ideal S64x4x4 .f32) (r c : IVec S24x4x1 32) : FVec Ideal S_ .f32 :=
  let v17 : IVec S24x4x2 32 := concatenate S24x4x2 2 [⟨S24x4x1, r⟩, ⟨S24x4x1, c⟩] concatenates_S24x4x1_S24x4x1_S24x4x2_d2
  let v18 : FVec Ideal S64x24x4 .f32 := Host.gather gather_S64x4x4_S24x4x2_S64x24x4_0_12_n_n_12_2_6411 cost v17
  let v19 : FVec Ideal S64x24 .f32 := Host.reduceAdd (F := Ideal) v18 (constant (F := Ideal) S_ .f32 0x00000000#32) reducesTo_S64x24x4_S64x24_d2 h_S_
  let v20 : FVec Ideal S64x24 .f32 := broadcastInDim S64x24 ![] bcast_S_S64x24 (constant (F := Ideal) S_ .f32 0x40800000#32)
  let v21 : FVec Ideal S64x24 .f32 := Host.divf (F := Ideal) v19 v20
  let v22 : FVec Ideal S64 .f32 := Host.reduce (FloatOps.minimumf (F := Ideal)) v21 (constant (F := Ideal) S_ .f32 0x7F800000#32) reducesTo_S64x24_S64_d1 h_S_
  let v23 : FVec Ideal S_ .f32 := Host.reduceAdd (F := Ideal) v22 (constant (F := Ideal) S_ .f32 0x00000000#32) reducesTo_S64_S_d0 h_S_
  Host.divf (F := Ideal) v23 (constant (F := Ideal) S_ .f32 0x42800000#32)

theorem after_val (V : Valuation τ sig (Elt Ideal)) :
    after opsVal V (Proc.devRef .tc main_v24)
      = valOf (V (Proc.devRef .tc main_v1)) (V (Proc.devRef .tc main_v15)) (V (Proc.devRef .tc main_v16)) := by
  dsimp only [opsVal, hostOps1, List.drop]
  after_results_simp
  rfl

theorem after_idx_v1 (V : Valuation τ sig (Elt Ideal)) :
    after opsIdx V (Proc.devRef .tc main_v1) = V (Proc.devRef .tc main_v1) := by
  dsimp only [opsIdx, hostOps1, List.take]
  after_results_simp

theorem after_idx_v15 (V : Valuation τ sig (Elt Ideal)) :
    after opsIdx V (Proc.devRef .tc main_v15) = rowTab := by
  dsimp only [opsIdx, hostOps1, List.take]
  after_results_simp
  rfl

theorem after_idx_v16 (V : Valuation τ sig (Elt Ideal)) :
    after opsIdx V (Proc.devRef .tc main_v16) = colTab (V (Proc.devRef .tc main_c)) := by
  dsimp only [opsIdx, hostOps1, List.take]
  after_results_simp
  rfl

/-- The same tables and the same operations, spelt over the other program's records: the search is one function
    of the cost matrix. -/
theorem valOf_eq_tail (cost : FVec Ideal S64x4x4 .f32) :
    valOf cost rowTab (colTab (fun i => Cert.KernelIdeal.lit0 (S24x4.rowMajor i))) = Cert.PitLoss.Ref.tail cost := by
  have hl : (fun i : S24x4.Idx => Cert.KernelIdeal.lit0 (S24x4.rowMajor i))
      = (fun i : Cert.ReferenceIdeal.S24x4.Idx => Cert.ReferenceIdeal.lit0 (Cert.ReferenceIdeal.S24x4.rowMajor i)) :=
    funext fun i => lit_eq _
  rw [hl]
  rfl

/-- The operations after the region, from any contents in which the table of permutations is the literal one:
    the result is the search applied to the cost array. -/
theorem after_tail (Vw : Valuation τ sig (Elt Ideal))
    (hc : Vw (Proc.devRef .tc main_c) = fun i => Cert.KernelIdeal.lit0 (S24x4.rowMajor i)) :
    after (hostOps1 (F := Ideal)) Vw (Proc.devRef .tc main_v24) = Cert.PitLoss.Ref.tail (Vw (Proc.devRef .tc main_v1)) := by
  rw [hostOps1_split, after_append, after_val, after_idx_v1, after_idx_v15, after_idx_v16, hc]
  exact valOf_eq_tail _

end Cert.PitLoss.Ker

end
-- ==== Proof.KerRun.lean ====
/-
  The kernel program's run, read: its result is the search over the permutations applied to the batch's cost matrix.

  The region leaves the batch's cost matrix in the cost array (the blocks cover it); the operations after the region
  read that array and the literal table of the permutations, which no operation before them changes; so the
  program's result is the search applied to the cost matrix of the arrays as launched, and the three argument arrays
  are as launched.
-/
import proofs.«154880_j77919296684577_2_alg».proof.Proof.KerArray
import proofs.«154880_j77919296684577_2_alg».proof.Proof.KerTail

noncomputable section

namespace Cert.PitLoss.Ker

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The region finds the literal table of the permutations in its array. -/
theorem V0_main_c (c : Dev nD) :
    V0 m c (Proc.devRef .tc main_c) = fun i => Cert.KernelIdeal.lit0 (S24x4.rowMajor i) := by
  show StableHlo.after hostOps0 (fun b => m (c, b)) (Proc.devRef .tc main_c) = _
  after_results
  rfl

/-- The last operation's result: the search applied to the batch's cost matrix. -/
theorem tail_eq (hblock : BlockEq) (c : Dev nD) :
    Pipeline.afterTail₀ cfgs (dats m) 0 (V0 m) [hostOps1] c main_v24 = Cert.PitLoss.Ref.tail (G m c) := by
  unfold Pipeline.afterTail₀
  show StableHlo.after hostOps1 _ (Proc.devRef .tc main_v24) = _
  rw [after_tail _ ((Pipeline.withArrays_of_ne _ c (V0 m c) _ main_c (by exact (by decide : ∀ w, Pipeline.arrRef spec0 w ≠ main_c))).trans (V0_main_c m c))]
  exact congrArg Cert.PitLoss.Ref.tail ((Pipeline.withArrays_arr spec0 launch0.win.arr_inj c _ _ 3).trans (final m hblock c))

/-- On every device, from any memory with zero counters: every weakly fair execution of the kernel program terminates,
    its result is the search applied to the cost matrix of the three arrays as launched, and the three arrays end as
    launched — provided each grid point leaves its block's cost matrix in its result block. -/
theorem run_spec
    (hblock : ∀ (c : Dev nD) (i : grid0.Coords) (arg1 : Memref sig .tc .vmem S8x8000x4 .f32) (harg1 : arg1.IsWhole)
      (arg2 : Memref sig .tc .vmem S8x8000x4 .f32) (harg2 : arg2.IsWhole) (arg3 : Memref sig .tc .vmem S8x8000x1 .f32) (harg3 : arg3.IsWhole)
      (arg4 : Memref sig .tc .vmem S8x4x4 .f32) (harg4 : arg4.IsWhole) (x0 x1 : Vec Ideal S8x8000x4 .f32) (x2 : Vec Ideal S8x8000x1 .f32),
      Cert.KernelIdeal.Gen.out0_A_3 (F := Ideal) c i arg1 harg1 arg2 harg2 arg3 harg3 arg4 harg4 x0 x1 x2 = Cert.PitLoss.blockCost x0 x1 x2)
    (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v24)
          = Cert.PitLoss.Ref.tail (Cert.PitLoss.costKer (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2)))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run defs _ _).mono (fun _ h c =>
      ⟨((h c).2 main_v24 (Pipeline.mem_restRefs_of main_v24 (by decide) (by decide))).trans (tail_eq m hblock c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c))),
        ((h c).2 main_arg2 (Pipeline.mem_restRefs_of main_arg2 (by decide) (by decide))).trans (W_main_arg2 m (dats m) c)⟩)
    (run_main m ρ)

end Cert.PitLoss.Ker

end
-- ==== Proof.CostTerm.lean ====
/-
  The reference's cost matrix as one term of its three arguments.

  softplus(z) is computed as  z ≠ z ? z + 0 : max(z, 0) + log1p(exp(-|z - 0|)),  log σ(z) as -softplus(-z).
  With x the logits read along a new last axis and y the targets along a new second-to-last axis, the frame loss is
    -((1.5·y)·log σ(x) + (1 - y)·log σ(-x)),
  it is weighted by the mask, summed over the 8000 frames from 0, and divided by max(1, 0 + Σ mask).
-/
import proofs.«154880_j77919296684577_2_alg».proof.Proof.Gen.ReferenceIdeal
import Idealize.ShloMosaic.PureOps.Ideal

noncomputable section

namespace Cert.PitLoss.Ref

open Idealize.ShloMosaic Cert.ReferenceIdeal Cert.ReferenceIdeal.Gen

/-- softplus, operation by operation: the guard z ≠ z (never taken over the extended reals) selects z + 0,
    otherwise max(z, 0) + log1p(exp(-|z - 0|)). -/
def softplusT (a : FVec Ideal S64x8000x4x1 .f32) : FVec Ideal S64x8000x4x1 .f32 :=
  let cst : FVec Ideal S_ .f32 := constant (F := Ideal) S_ .f32 0x00000000#32
  let v0 : FVec Ideal S64x8000x4x1 .f32 := broadcastInDim S64x8000x4x1 ![] bcast_S_S64x8000x4x1 cst
  let v1 : FVec Ideal S64x8000x4x1 .f32 := maximumf (F := Ideal) a v0
  let v2 : FVec Ideal S64x8000x4x1 .f32 := broadcastInDim S64x8000x4x1 ![] bcast_S_S64x8000x4x1 cst
  let v3 : FVec Ideal S64x8000x4x1 .f32 := subf (F := Ideal) a v2
  let v4 : IVec S64x8000x4x1 1 := cmpf (F := Ideal) .une v3 v3
  let v5 : FVec Ideal S64x8000x4x1 .f32 := broadcastInDim S64x8000x4x1 ![] bcast_S_S64x8000x4x1 cst
  let v6 : FVec Ideal S64x8000x4x1 .f32 := addf (F := Ideal) a v5
  let v7 : FVec Ideal S64x8000x4x1 .f32 := Host.absf (F := Ideal) v3
  let v8 : FVec Ideal S64x8000x4x1 .f32 := Host.negf (F := Ideal) v7
  let v9 : FVec Ideal S64x8000x4x1 .f32 := Host.exp (F := Ideal) v8
  let v10 : FVec Ideal S64x8000x4x1 .f32 := Host.log1p (F := Ideal) v9
  let v11 : FVec Ideal S64x8000x4x1 .f32 := addf (F := Ideal) v1 v10
  select v4 v6 v11

/-- log σ(z) = -softplus(-z). -/
def logSigT (a : FVec Ideal S64x8000x4x1 .f32) : FVec Ideal S64x8000x4x1 .f32 :=
  Host.negf (F := Ideal) (softplusT (Host.negf (F := Ideal) a))

/-- The masked frame loss at (row, frame, logit column, target column), operation by operation. -/
def frameT (a0 a1 : FVec Ideal S64x8000x4 .f32) (a2 : FVec Ideal S64x8000 .f32) : FVec Ideal S64x8000x4x4 .f32 :=
  -- logits along a new last axis, targets along a new second-to-last axis
  let v0 : FVec Ideal S64x8000x4x1 .f32 := broadcastInDim S64x8000x4x1 ![0, 1, 2] bcast_S64x8000x4_S64x8000x4x1_0_1_2 a0
  let v1 : FVec Ideal S64x8000x1x4 .f32 := broadcastInDim S64x8000x1x4 ![0, 1, 3] bcast_S64x8000x4_S64x8000x1x4_0_1_3 a1
  -- 1.5·y
  let cst : FVec Ideal S_ .f32 := constant (F := Ideal) S_ .f32 0x3FC00000#32
  let v2 : FVec Ideal S64x8000x1x4 .f32 := broadcastInDim S64x8000x1x4 ![] bcast_S_S64x8000x1x4 cst
  let v3 : FVec Ideal S64x8000x1x4 .f32 := mulf (F := Ideal) v2 v1
  -- (1.5·y)·log σ(x)
  let v4 : FVec Ideal S64x8000x4x1 .f32 := logSigT v0
  let v5 : FVec Ideal S64x8000x4x4 .f32 := broadcastInDim S64x8000x4x4 ![0, 1, 2, 3] bcast_S64x8000x1x4_S64x8000x4x4_0_1_2_3 v3
  let v6 : FVec Ideal S64x8000x4x4 .f32 := broadcastInDim S64x8000x4x4 ![0, 1, 2, 3] bcast_S64x8000x4x1_S64x8000x4x4_0_1_2_3 v4
  let v7 : FVec Ideal S64x8000x4x4 .f32 := mulf (F := Ideal) v5 v6
  -- (1 - y)·log σ(-x)
  let cst_0 : FVec Ideal S_ .f32 := constant (F := Ideal) S_ .f32 0x3F800000#32
  let v8 : FVec Ideal S64x8000x1x4 .f32 := broadcastInDim S64x8000x1x4 ![] bcast_S_S64x8000x1x4 cst_0
  let v9 : FVec Ideal S64x8000x1x4 .f32 := subf (F := Ideal) v8 v1
  let v10 : FVec Ideal S64x8000x4x1 .f32 := Host.negf (F := Ideal) v0
  let v11 : FVec Ideal S64x8000x4x1 .f32 := logSigT v10
  let v12 : FVec Ideal S64x8000x4x4 .f32 := broadcastInDim S64x8000x4x4 ![0, 1, 2, 3] bcast_S64x8000x1x4_S64x8000x4x4_0_1_2_3 v9
  let v13 : FVec Ideal S64x8000x4x4 .f32 := broadcastInDim S64x8000x4x4 ![0, 1, 2, 3] bcast_S64x8000x4x1_S64x8000x4x4_0_1_2_3 v11
  let v14 : FVec Ideal S64x8000x4x4 .f32 := mulf (F := Ideal) v12 v13
  -- the frame loss, weighted by the mask
  let v15 : FVec Ideal S64x8000x4x4 .f32 := addf (F := Ideal) v7 v14
  let v16 : FVec Ideal S64x8000x4x4 .f32 := Host.negf (F := Ideal) v15
  let v17 : FVec Ideal S64x8000x1x1 .f32 := broadcastInDim S64x8000x1x1 ![0, 1] bcast_S64x8000_S64x8000x1x1_0_1 a2
  let v18 : FVec Ideal S64x8000x4x4 .f32 := broadcastInDim S64x8000x4x4 ![0, 1, 2, 3] bcast_S64x8000x1x1_S64x8000x4x4_0_1_2_3 v17
  mulf (F := Ideal) v16 v18

/-- The mask's count per row from 0, clamped below by one, read at every entry of the cost matrix. -/
def denomT (a2 : FVec Ideal S64x8000 .f32) : FVec Ideal S64x4x4 .f32 :=
  let cst_2 : FVec Ideal S_ .f32 := constant (F := Ideal) S_ .f32 0x00000000#32
  let v21 : FVec Ideal S64 .f32 := Host.reduceAdd (F := Ideal) a2 cst_2 reducesTo_S64x8000_S64_d1 h_S_
  let cst_3 : FVec Ideal S_ .f32 := constant (F := Ideal) S_ .f32 0x3F800000#32
  let w1 : FVec Ideal S64 .f32 := broadcastInDim S64 ![] bcast_S_S64 cst_3
  let v22 : FVec Ideal S64 .f32 := maximumf (F := Ideal) w1 v21
  let v23 : FVec Ideal S64x1x1 .f32 := broadcastInDim S64x1x1 ![0] bcast_S64_S64x1x1_0 v22
  broadcastInDim S64x4x4 ![0, 1, 2] bcast_S64x1x1_S64x4x4_0_1_2 v23

/-- The cost matrix: the masked frame loss summed over the frames from 0, over the clamped count. -/
def costTerm (a0 a1 : FVec Ideal S64x8000x4 .f32) (a2 : FVec Ideal S64x8000 .f32) : FVec Ideal S64x4x4 .f32 :=
  Host.divf (F := Ideal)
    (Host.reduceAdd (F := Ideal) (frameT a0 a1 a2) (constant (F := Ideal) S_ .f32 0x00000000#32) reducesTo_S64x8000x4x4_S64x4x4_d1 h_S_)
    (denomT a2)

end Cert.PitLoss.Ref

end
-- ==== Proof.RefOps.lean ====
/-
  The reference program as one straight line of host operations.

  @main calls log σ twice and the clamp once; log σ itself calls softplus. Each call is the callee's
  operations run on the call's own buffers, so the whole program is a list of 96 elementwise, broadcast,
  reduction and gather operations: the first 64 end at the cost matrix (the quotient of the masked frame sum
  by the clamped mask count), the last 32 are the search over the permutations.
-/
import proofs.«154880_j77919296684577_2_alg».proof.Proof.Gen.ReferenceIdeal
import Idealize.ShloMosaic.Lib.StableHlo.Run

noncomputable section

namespace Cert.PitLoss.Ref

open Cert.ReferenceIdeal Cert.ReferenceIdeal.Gen Idealize.ShloMosaic Idealize.ShloMosaic.TcCoe Idealize.SL.Sem Idealize.ShloMosaic.StableHlo

variable {F : FTy → Type} [FloatOps F]

/-- The operations up to the cost matrix: the table of permutations, the two broadcasts of logits and targets, the weighted targets, log σ(x) (negation, softplus, negation), the complement of the targets, log σ(-x), the two products, their sum negated, the mask's broadcast and product, the sum over the frames, the mask's sum clamped below by one, and the quotient. -/
abbrev opsA : List (HloOp τ sig (Elt F)) :=
  [ nullary main_c (fun i => lit0 (S24x4.rowMajor i)),
    unary main_arg0 main_v0 (broadcastInDim S64x8000x4x1 ![0, 1, 2] bcast_S64x8000x4_S64x8000x4x1_0_1_2 : (⟨S64x8000x4, .f32⟩ : BufTy).Contents (Elt F) → (⟨S64x8000x4x1, .f32⟩ : BufTy).Contents (Elt F)),
    unary main_arg1 main_v1 (broadcastInDim S64x8000x1x4 ![0, 1, 3] bcast_S64x8000x4_S64x8000x1x4_0_1_3 : (⟨S64x8000x4, .f32⟩ : BufTy).Contents (Elt F) → (⟨S64x8000x1x4, .f32⟩ : BufTy).Contents (Elt F)),
    nullary main_cst (constant S_ .f32 0x3FC00000#32),
    unary main_cst main_v2 (broadcastInDim S64x8000x1x4 ![] bcast_S_S64x8000x1x4 : (⟨S_, .f32⟩ : BufTy).Contents (Elt F) → (⟨S64x8000x1x4, .f32⟩ : BufTy).Contents (Elt F)),
    binary main_v2 main_v1 main_v3 (mulf : (⟨S64x8000x1x4, .f32⟩ : BufTy).Contents (Elt F) → (⟨S64x8000x1x4, .f32⟩ : BufTy).Contents (Elt F) → (⟨S64x8000x1x4, .f32⟩ : BufTy).Contents (Elt F)),
    TRef.unary (.of main_v0) main_call0.v0 Host.negf,
    TRef.nullary main_call0.call0.cst (constant S_ .f32 0x00000000#32),
    TRef.unary main_call0.call0.cst main_call0.call0.v0 (broadcastInDim S64x8000x4x1 ![] bcast_S_S64x8000x4x1),
    TRef.binary main_call0.v0 main_call0.call0.v0 main_call0.call0.v1 maximumf,
    TRef.unary main_call0.call0.cst main_call0.call0.v2 (broadcastInDim S64x8000x4x1 ![] bcast_S_S64x8000x4x1),
    TRef.binary main_call0.v0 main_call0.call0.v2 main_call0.call0.v3 subf,
    TRef.binary main_call0.call0.v3 main_call0.call0.v3 main_call0.call0.v4 (cmpf .une),
    TRef.unary main_call0.call0.cst main_call0.call0.v5 (broadcastInDim S64x8000x4x1 ![] bcast_S_S64x8000x4x1),
    TRef.binary main_call0.v0 main_call0.call0.v5 main_call0.call0.v6 addf,
    TRef.unary main_call0.call0.v3 main_call0.call0.v7 Host.absf,
    TRef.unary main_call0.call0.v7 main_call0.call0.v8 Host.negf,
    TRef.unary main_call0.call0.v8 main_call0.call0.v9 Host.exp,
    TRef.unary main_call0.call0.v9 main_call0.call0.v10 Host.log1p,
    TRef.binary main_call0.call0.v1 main_call0.call0.v10 main_call0.call0.v11 addf,
    TRef.ternary main_call0.call0.v4 main_call0.call0.v6 main_call0.call0.v11 main_call0.call0.v12 select,
    TRef.unary main_call0.call0.v12 main_call0.v2 Host.negf,
    unary main_v3 main_v5 (broadcastInDim S64x8000x4x4 ![0, 1, 2, 3] bcast_S64x8000x1x4_S64x8000x4x4_0_1_2_3 : (⟨S64x8000x1x4, .f32⟩ : BufTy).Contents (Elt F) → (⟨S64x8000x4x4, .f32⟩ : BufTy).Contents (Elt F)),
    unary main_v4 main_v6 (broadcastInDim S64x8000x4x4 ![0, 1, 2, 3] bcast_S64x8000x4x1_S64x8000x4x4_0_1_2_3 : (⟨S64x8000x4x1, .f32⟩ : BufTy).Contents (Elt F) → (⟨S64x8000x4x4, .f32⟩ : BufTy).Contents (Elt F)),
    binary main_v5 main_v6 main_v7 (mulf : (⟨S64x8000x4x4, .f32⟩ : BufTy).Contents (Elt F) → (⟨S64x8000x4x4, .f32⟩ : BufTy).Contents (Elt F) → (⟨S64x8000x4x4, .f32⟩ : BufTy).Contents (Elt F)),
    nullary main_cst_0 (constant S_ .f32 0x3F800000#32),
    unary main_cst_0 main_v8 (broadcastInDim S64x8000x1x4 ![] bcast_S_S64x8000x1x4 : (⟨S_, .f32⟩ : BufTy).Contents (Elt F) → (⟨S64x8000x1x4, .f32⟩ : BufTy).Contents (Elt F)),
    binary main_v8 main_v1 main_v9 (subf : (⟨S64x8000x1x4, .f32⟩ : BufTy).Contents (Elt F) → (⟨S64x8000x1x4, .f32⟩ : BufTy).Contents (Elt F) → (⟨S64x8000x1x4, .f32⟩ : BufTy).Contents (Elt F)),
    unary main_v0 main_v10 (Host.negf : (⟨S64x8000x4x1, .f32⟩ : BufTy).Contents (Elt F) → (⟨S64x8000x4x1, .f32⟩ : BufTy).Contents (Elt F)),
    TRef.unary (.of main_v10) main_call1.v0 Host.negf,
    TRef.nullary main_call1.call0.cst (constant S_ .f32 0x00000000#32),
    TRef.unary main_call1.call0.cst main_call1.call0.v0 (broadcastInDim S64x8000x4x1 ![] bcast_S_S64x8000x4x1),
    TRef.binary main_call1.v0 main_call1.call0.v0 main_call1.call0.v1 maximumf,
    TRef.unary main_call1.call0.cst main_call1.call0.v2 (broadcastInDim S64x8000x4x1 ![] bcast_S_S64x8000x4x1),
    TRef.binary main_call1.v0 main_call1.call0.v2 main_call1.call0.v3 subf,
    TRef.binary main_call1.call0.v3 main_call1.call0.v3 main_call1.call0.v4 (cmpf .une),
    TRef.unary main_call1.call0.cst main_call1.call0.v5 (broadcastInDim S64x8000x4x1 ![] bcast_S_S64x8000x4x1),
    TRef.binary main_call1.v0 main_call1.call0.v5 main_call1.call0.v6 addf,
    TRef.unary main_call1.call0.v3 main_call1.call0.v7 Host.absf,
    TRef.unary main_call1.call0.v7 main_call1.call0.v8 Host.negf,
    TRef.unary main_call1.call0.v8 main_call1.call0.v9 Host.exp,
    TRef.unary main_call1.call0.v9 main_call1.call0.v10 Host.log1p,
    TRef.binary main_call1.call0.v1 main_call1.call0.v10 main_call1.call0.v11 addf,
    TRef.ternary main_call1.call0.v4 main_call1.call0.v6 main_call1.call0.v11 main_call1.call0.v12 select,
    TRef.unary main_call1.call0.v12 main_call1.v2 Host.negf,
    unary main_v9 main_v12 (broadcastInDim S64x8000x4x4 ![0, 1, 2, 3] bcast_S64x8000x1x4_S64x8000x4x4_0_1_2_3 : (⟨S64x8000x1x4, .f32⟩ : BufTy).Contents (Elt F) → (⟨S64x8000x4x4, .f32⟩ : BufTy).Contents (Elt F)),
    unary main_v11 main_v13 (broadcastInDim S64x8000x4x4 ![0, 1, 2, 3] bcast_S64x8000x4x1_S64x8000x4x4_0_1_2_3 : (⟨S64x8000x4x1, .f32⟩ : BufTy).Contents (Elt F) → (⟨S64x8000x4x4, .f32⟩ : BufTy).Contents (Elt F)),
    binary main_v12 main_v13 main_v14 (mulf : (⟨S64x8000x4x4, .f32⟩ : BufTy).Contents (Elt F) → (⟨S64x8000x4x4, .f32⟩ : BufTy).Contents (Elt F) → (⟨S64x8000x4x4, .f32⟩ : BufTy).Contents (Elt F)),
    binary main_v7 main_v14 main_v15 (addf : (⟨S64x8000x4x4, .f32⟩ : BufTy).Contents (Elt F) → (⟨S64x8000x4x4, .f32⟩ : BufTy).Contents (Elt F) → (⟨S64x8000x4x4, .f32⟩ : BufTy).Contents (Elt F)),
    unary main_v15 main_v16 (Host.negf : (⟨S64x8000x4x4, .f32⟩ : BufTy).Contents (Elt F) → (⟨S64x8000x4x4, .f32⟩ : BufTy).Contents (Elt F)),
    unary main_arg2 main_v17 (broadcastInDim S64x8000x1x1 ![0, 1] bcast_S64x8000_S64x8000x1x1_0_1 : (⟨S64x8000, .f32⟩ : BufTy).Contents (Elt F) → (⟨S64x8000x1x1, .f32⟩ : BufTy).Contents (Elt F)),
    unary main_v17 main_v18 (broadcastInDim S64x8000x4x4 ![0, 1, 2, 3] bcast_S64x8000x1x1_S64x8000x4x4_0_1_2_3 : (⟨S64x8000x1x1, .f32⟩ : BufTy).Contents (Elt F) → (⟨S64x8000x4x4, .f32⟩ : BufTy).Contents (Elt F)),
    binary main_v16 main_v18 main_v19 (mulf : (⟨S64x8000x4x4, .f32⟩ : BufTy).Contents (Elt F) → (⟨S64x8000x4x4, .f32⟩ : BufTy).Contents (Elt F) → (⟨S64x8000x4x4, .f32⟩ : BufTy).Contents (Elt F)),
    nullary main_cst_1 (constant S_ .f32 0x00000000#32),
    binary main_v19 main_cst_1 main_v20 ((fun x v => Host.reduceAdd x v reducesTo_S64x8000x4x4_S64x4x4_d1 h_S_) : (⟨S64x8000x4x4, .f32⟩ : BufTy).Contents (Elt F) → (⟨S_, .f32⟩ : BufTy).Contents (Elt F) → (⟨S64x4x4, .f32⟩ : BufTy).Contents (Elt F)),
    nullary main_cst_2 (constant S_ .f32 0x00000000#32),
    binary main_arg2 main_cst_2 main_v21 ((fun x v => Host.reduceAdd x v reducesTo_S64x8000_S64_d1 h_S_) : (⟨S64x8000, .f32⟩ : BufTy).Contents (Elt F) → (⟨S_, .f32⟩ : BufTy).Contents (Elt F) → (⟨S64, .f32⟩ : BufTy).Contents (Elt F)),
    nullary main_cst_3 (constant S_ .f32 0x3F800000#32),
    TRef.unary (.of main_cst_3) main_call2.v0 id,
    TRef.unary main_call2.v0 main_call2.v1 (broadcastInDim S64 ![] bcast_S_S64),
    TRef.binary main_call2.v1 (.of main_v21) main_call2.v2 maximumf,
    unary main_v22 main_v23 (broadcastInDim S64x1x1 ![0] bcast_S64_S64x1x1_0 : (⟨S64, .f32⟩ : BufTy).Contents (Elt F) → (⟨S64x1x1, .f32⟩ : BufTy).Contents (Elt F)),
    unary main_v23 main_v24 (broadcastInDim S64x4x4 ![0, 1, 2] bcast_S64x1x1_S64x4x4_0_1_2 : (⟨S64x1x1, .f32⟩ : BufTy).Contents (Elt F) → (⟨S64x4x4, .f32⟩ : BufTy).Contents (Elt F)),
    binary main_v20 main_v24 main_v25 (Host.divf : (⟨S64x4x4, .f32⟩ : BufTy).Contents (Elt F) → (⟨S64x4x4, .f32⟩ : BufTy).Contents (Elt F) → (⟨S64x4x4, .f32⟩ : BufTy).Contents (Elt F)) ]

/-- The operations after the cost matrix: the row and column index tables, the gather, the sum over rows divided by 4, the least over the permutations, the sum over the batch divided by 64. -/
abbrev opsT : List (HloOp τ sig (Elt F)) :=
  [ nullary main_v26 (iotaInDim S4 32 0),
    unary main_v26 main_v27 (broadcastInDim S1x4 ![1] bcast_S4_S1x4_1 : (⟨S4, .i32⟩ : BufTy).Contents (Elt F) → (⟨S1x4, .i32⟩ : BufTy).Contents (Elt F)),
    nullary main_c_4 (constantI S_ 32 0#32),
    unary main_c_4 main_v28 (broadcastInDim S1x4 ![] bcast_S_S1x4 : (⟨S_, .i32⟩ : BufTy).Contents (Elt F) → (⟨S1x4, .i32⟩ : BufTy).Contents (Elt F)),
    binary main_v27 main_v28 main_v29 (cmpi .slt : (⟨S1x4, .i32⟩ : BufTy).Contents (Elt F) → (⟨S1x4, .i32⟩ : BufTy).Contents (Elt F) → (⟨S1x4, .i1⟩ : BufTy).Contents (Elt F)),
    nullary main_c_5 (constantI S_ 32 4#32),
    unary main_c_5 main_v30 (broadcastInDim S1x4 ![] bcast_S_S1x4 : (⟨S_, .i32⟩ : BufTy).Contents (Elt F) → (⟨S1x4, .i32⟩ : BufTy).Contents (Elt F)),
    binary main_v27 main_v30 main_v31 (addi : (⟨S1x4, .i32⟩ : BufTy).Contents (Elt F) → (⟨S1x4, .i32⟩ : BufTy).Contents (Elt F) → (⟨S1x4, .i32⟩ : BufTy).Contents (Elt F)),
    ternary main_v29 main_v31 main_v27 main_v32 (select : (⟨S1x4, .i1⟩ : BufTy).Contents (Elt F) → (⟨S1x4, .i32⟩ : BufTy).Contents (Elt F) → (⟨S1x4, .i32⟩ : BufTy).Contents (Elt F) → (⟨S1x4, .i32⟩ : BufTy).Contents (Elt F)),
    nullary main_c_6 (constantI S_ 32 0#32),
    unary main_c_6 main_v33 (broadcastInDim S24x4 ![] bcast_S_S24x4 : (⟨S_, .i32⟩ : BufTy).Contents (Elt F) → (⟨S24x4, .i32⟩ : BufTy).Contents (Elt F)),
    binary main_c main_v33 main_v34 (cmpi .slt : (⟨S24x4, .i32⟩ : BufTy).Contents (Elt F) → (⟨S24x4, .i32⟩ : BufTy).Contents (Elt F) → (⟨S24x4, .i1⟩ : BufTy).Contents (Elt F)),
    nullary main_c_7 (constantI S_ 32 4#32),
    unary main_c_7 main_v35 (broadcastInDim S24x4 ![] bcast_S_S24x4 : (⟨S_, .i32⟩ : BufTy).Contents (Elt F) → (⟨S24x4, .i32⟩ : BufTy).Contents (Elt F)),
    binary main_c main_v35 main_v36 (addi : (⟨S24x4, .i32⟩ : BufTy).Contents (Elt F) → (⟨S24x4, .i32⟩ : BufTy).Contents (Elt F) → (⟨S24x4, .i32⟩ : BufTy).Contents (Elt F)),
    ternary main_v34 main_v36 main_c main_v37 (select : (⟨S24x4, .i1⟩ : BufTy).Contents (Elt F) → (⟨S24x4, .i32⟩ : BufTy).Contents (Elt F) → (⟨S24x4, .i32⟩ : BufTy).Contents (Elt F) → (⟨S24x4, .i32⟩ : BufTy).Contents (Elt F)),
    unary main_v32 main_v38 (broadcastInDim S24x4 ![0, 1] bcast_S1x4_S24x4_0_1 : (⟨S1x4, .i32⟩ : BufTy).Contents (Elt F) → (⟨S24x4, .i32⟩ : BufTy).Contents (Elt F)),
    unary main_v38 main_v39 (broadcastInDim S24x4x1 ![0, 1] bcast_S24x4_S24x4x1_0_1 : (⟨S24x4, .i32⟩ : BufTy).Contents (Elt F) → (⟨S24x4x1, .i32⟩ : BufTy).Contents (Elt F)),
    unary main_v37 main_v40 (broadcastInDim S24x4x1 ![0, 1] bcast_S24x4_S24x4x1_0_1 : (⟨S24x4, .i32⟩ : BufTy).Contents (Elt F) → (⟨S24x4x1, .i32⟩ : BufTy).Contents (Elt F)),
    binary main_v39 main_v40 main_v41 ((fun a b => concatenate S24x4x2 2 [⟨S24x4x1, a⟩, ⟨S24x4x1, b⟩] concatenates_S24x4x1_S24x4x1_S24x4x2_d2) : (⟨S24x4x1, .i32⟩ : BufTy).Contents (Elt F) → (⟨S24x4x1, .i32⟩ : BufTy).Contents (Elt F) → (⟨S24x4x2, .i32⟩ : BufTy).Contents (Elt F)),
    binary main_v25 main_v41 main_v42 ((fun x i => Host.gather gather_S64x4x4_S24x4x2_S64x24x4_0_12_n_n_12_2_6411 x i) : (⟨S64x4x4, .f32⟩ : BufTy).Contents (Elt F) → (⟨S24x4x2, .i32⟩ : BufTy).Contents (Elt F) → (⟨S64x24x4, .f32⟩ : BufTy).Contents (Elt F)),
    nullary main_cst_8 (constant S_ .f32 0x00000000#32),
    binary main_v42 main_cst_8 main_v43 ((fun x v => Host.reduceAdd x v reducesTo_S64x24x4_S64x24_d2 h_S_) : (⟨S64x24x4, .f32⟩ : BufTy).Contents (Elt F) → (⟨S_, .f32⟩ : BufTy).Contents (Elt F) → (⟨S64x24, .f32⟩ : BufTy).Contents (Elt F)),
    nullary main_cst_9 (constant S_ .f32 0x40800000#32),
    unary main_cst_9 main_v44 (broadcastInDim S64x24 ![] bcast_S_S64x24 : (⟨S_, .f32⟩ : BufTy).Contents (Elt F) → (⟨S64x24, .f32⟩ : BufTy).Contents (Elt F)),
    binary main_v43 main_v44 main_v45 (Host.divf : (⟨S64x24, .f32⟩ : BufTy).Contents (Elt F) → (⟨S64x24, .f32⟩ : BufTy).Contents (Elt F) → (⟨S64x24, .f32⟩ : BufTy).Contents (Elt F)),
    nullary main_cst_10 (constant S_ .f32 0x7F800000#32),
    binary main_v45 main_cst_10 main_v46 ((fun x v => Host.reduce FloatOps.minimumf x v reducesTo_S64x24_S64_d1 h_S_) : (⟨S64x24, .f32⟩ : BufTy).Contents (Elt F) → (⟨S_, .f32⟩ : BufTy).Contents (Elt F) → (⟨S64, .f32⟩ : BufTy).Contents (Elt F)),
    nullary main_cst_11 (constant S_ .f32 0x00000000#32),
    binary main_v46 main_cst_11 main_v47 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    nullary main_cst_12 (constant S_ .f32 0x42800000#32),
    binary main_v47 main_cst_12 main_v48 (Host.divf : (⟨S_, .f32⟩ : BufTy).Contents (Elt F) → (⟨S_, .f32⟩ : BufTy).Contents (Elt F) → (⟨S_, .f32⟩ : BufTy).Contents (Elt F)) ]

/-- @main's 96 operations, in order. -/
abbrev ops : List (HloOp τ sig (Elt F)) := opsA ++ opsT

-- ninety-six binds re-associated: the rewrite under the chain recurses once per statement
set_option maxRecDepth 8192 in
set_option maxHeartbeats 4000000 in
/-- @main is that straight line: the two windows in order, the functions' definitions unfolded at their calls;
    both sides are one chain of steps once sequencing is reassociated. -/
theorem main_eq (c : Dev nD) : main (F := F) c = seq ops := by
  simp only [main, main_part0, main_part1, fn_log_sigmoid.body, fn_softplus.body, fn_clip.body, ops, opsA, opsT,
    List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨nullary_bufs_sub .., unary_bufs_sub .., unary_bufs_sub .., nullary_bufs_sub .., unary_bufs_sub .., binary_bufs_sub ..,
    unary_bufs_sub .., nullary_bufs_sub .., unary_bufs_sub .., binary_bufs_sub .., unary_bufs_sub .., binary_bufs_sub ..,
    binary_bufs_sub .., unary_bufs_sub .., binary_bufs_sub .., unary_bufs_sub .., unary_bufs_sub .., unary_bufs_sub ..,
    unary_bufs_sub .., binary_bufs_sub .., ternary_bufs_sub .., unary_bufs_sub .., unary_bufs_sub .., unary_bufs_sub ..,
    binary_bufs_sub .., nullary_bufs_sub .., unary_bufs_sub .., binary_bufs_sub .., unary_bufs_sub .., unary_bufs_sub ..,
    nullary_bufs_sub .., unary_bufs_sub .., binary_bufs_sub .., unary_bufs_sub .., binary_bufs_sub .., binary_bufs_sub ..,
    unary_bufs_sub .., binary_bufs_sub .., unary_bufs_sub .., unary_bufs_sub .., unary_bufs_sub .., unary_bufs_sub ..,
    binary_bufs_sub .., ternary_bufs_sub .., unary_bufs_sub .., unary_bufs_sub .., unary_bufs_sub .., binary_bufs_sub ..,
    binary_bufs_sub .., unary_bufs_sub .., unary_bufs_sub .., unary_bufs_sub .., binary_bufs_sub .., nullary_bufs_sub ..,
    binary_bufs_sub .., nullary_bufs_sub .., binary_bufs_sub .., nullary_bufs_sub .., unary_bufs_sub .., unary_bufs_sub ..,
    binary_bufs_sub .., unary_bufs_sub .., unary_bufs_sub .., binary_bufs_sub ..⟩

theorem opsT_sub : (opsT : List (HloOp τ sig (Elt F))).Forall fun op => op.bufs ⊆ tcRefs τ sig :=
  ⟨nullary_bufs_sub .., unary_bufs_sub .., nullary_bufs_sub .., unary_bufs_sub .., binary_bufs_sub .., nullary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., unary_bufs_sub .., unary_bufs_sub ..,
    unary_bufs_sub .., binary_bufs_sub .., binary_bufs_sub .., nullary_bufs_sub .., binary_bufs_sub .., nullary_bufs_sub ..,
    unary_bufs_sub .., binary_bufs_sub .., nullary_bufs_sub .., binary_bufs_sub .., nullary_bufs_sub .., binary_bufs_sub ..,
    nullary_bufs_sub .., binary_bufs_sub ..⟩

theorem ops_sub : (ops : List (HloOp τ sig (Elt F))).Forall fun op => op.bufs ⊆ tcRefs τ sig :=
  List.forall_append.2 ⟨opsA_sub, opsT_sub⟩

/-- The fold of two lines run one after the other is the second's over the first's. -/
theorem after_append' (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-- On every device, from any memory with zero counters: every weakly fair execution of @main terminates, and
    every buffer ends at the fold of the 96 operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after opsT (after opsA (launchContents m c)) (b : DevRef τ sig) :=
  (θ_run defs _ _).mono (fun _ h c b => (h c b).trans (congrFun (after_append' opsA opsT _) _))
    (run_seq scopedRefs_eq scopedSems_eq defs main (fun _ => ops) main_eq (fun _ => ops_sub) m ρ)

end Cert.PitLoss.Ref

end
-- ==== Proof.RefRun.lean ====
/-
  The reference's run read back as a value.

  After the first 64 operations the cost-matrix buffer holds the operations' composed term of the three
  arguments, the table buffer the 24 permutations, and the arguments are untouched; after the last 32,
  from any contents with that table, the result buffer holds the permutation search of whatever the
  cost-matrix buffer held. Together: every execution ends with the result at the search of the composed cost.
-/
import proofs.«154880_j77919296684577_2_alg».proof.Proof.RefOps
import proofs.«154880_j77919296684577_2_alg».proof.Proof.Tail
import proofs.«154880_j77919296684577_2_alg».proof.Proof.CostTerm

noncomputable section

namespace Cert.PitLoss.Ref

open Cert.ReferenceIdeal Cert.ReferenceIdeal.Gen Idealize.ShloMosaic Idealize.ShloMosaic.TcCoe Idealize.SL.Sem Idealize.ShloMosaic.StableHlo

/-! ## The first 64 operations -/

-- the reductions and broadcasts stay folded: the two sides meet operation by operation, never element by element
attribute [local irreducible] Host.reduce Host.reduceAdd Host.gather concatenate broadcastInDim in
set_option maxRecDepth 16384 in
set_option maxHeartbeats 4000000 in
/-- The cost-matrix buffer after the first 64 operations: each operation's result at its own buffer is its function
    of its operands' buffers, so the fold is the composed term. -/
theorem cost_eq (V : Valuation τ sig (Elt Ideal)) :
    after (opsA (F := Ideal)) V (main_v25 : DevRef τ sig)
      = costTerm (V (main_arg0 : DevRef τ sig)) (V (main_arg1 : DevRef τ sig)) (V (main_arg2 : DevRef τ sig)) := by
  after_results_simp
  rfl

set_option maxRecDepth 16384 in
set_option maxHeartbeats 4000000 in
/-- The table buffer after them: written once, by the first operation. -/
theorem c_eq (V : Valuation τ sig (Elt Ideal)) :
    after (opsA (F := Ideal)) V (main_c : DevRef τ sig) = fun i => lit0 (S24x4.rowMajor i) := by
  (after_results_simp) <;> rfl

set_option maxRecDepth 16384 in
set_option maxHeartbeats 4000000 in
theorem arg0_A (V : Valuation τ sig (Elt Ideal)) :
    after (opsA (F := Ideal)) V (main_arg0 : DevRef τ sig) = V (main_arg0 : DevRef τ sig) := by
  (after_results_simp) <;> rfl

set_option maxRecDepth 16384 in
set_option maxHeartbeats 4000000 in
theorem arg1_A (V : Valuation τ sig (Elt Ideal)) :
    after (opsA (F := Ideal)) V (main_arg1 : DevRef τ sig) = V (main_arg1 : DevRef τ sig) := by
  (after_results_simp) <;> rfl

set_option maxRecDepth 16384 in
set_option maxHeartbeats 4000000 in
theorem arg2_A (V : Valuation τ sig (Elt Ideal)) :
    after (opsA (F := Ideal)) V (main_arg2 : DevRef τ sig) = V (main_arg2 : DevRef τ sig) := by
  (after_results_simp) <;> rfl

/-! ## The last 32 operations -/

attribute [local irreducible] Host.reduce Host.reduceAdd Host.gather concatenate broadcastInDim in
set_option maxRecDepth 16384 in
set_option maxHeartbeats 4000000 in
/-- The result buffer after the last 32 operations, from contents whose table buffer holds the permutations: the
    search of what the cost-matrix buffer holds. -/
theorem tail_eq (W : Valuation τ sig (Elt Ideal))
    (hc : W (main_c : DevRef τ sig) = fun i => lit0 (S24x4.rowMajor i)) :
    after (opsT (F := Ideal)) W (main_v48 : DevRef τ sig) = tail (W (main_v25 : DevRef τ sig)) := by
  after_results_simp
  -- the two index tables sit under the concatenation's list of operands: the same computation there, by rewriting
  repeat (first
    | rw [nullary_result] | rw [unary_result] | rw [binary_result] | rw [ternary_result]
    | (rw [nullary_result_ne]; rotate_left; decide)
    | (rw [unary_result_ne]; rotate_left; decide)
    | (rw [binary_result_ne]; rotate_left; decide)
    | (rw [ternary_result_ne]; rotate_left; decide))
  rw [hc]
  rfl

set_option maxRecDepth 16384 in
set_option maxHeartbeats 4000000 in
theorem arg0_T (W : Valuation τ sig (Elt Ideal)) :
    after (opsT (F := Ideal)) W (main_arg0 : DevRef τ sig) = W (main_arg0 : DevRef τ sig) := by
  (after_results_simp) <;> rfl

set_option maxRecDepth 16384 in
set_option maxHeartbeats 4000000 in
theorem arg1_T (W : Valuation τ sig (Elt Ideal)) :
    after (opsT (F := Ideal)) W (main_arg1 : DevRef τ sig) = W (main_arg1 : DevRef τ sig) := by
  (after_results_simp) <;> rfl

set_option maxRecDepth 16384 in
set_option maxHeartbeats 4000000 in
theorem arg2_T (W : Valuation τ sig (Elt Ideal)) :
    after (opsT (F := Ideal)) W (main_arg2 : DevRef τ sig) = W (main_arg2 : DevRef τ sig) := by
  (after_results_simp) <;> rfl

/-! ## The run -/

/-- On every device, from any memory with zero counters: every weakly fair execution of @main terminates with the
    result at the permutation search of the composed cost matrix of the arguments' launch contents, the arguments
    unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v48)
        = tail (costTerm (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2)))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run defs _ _).mono (fun _ h c =>
      ⟨(h c main_v48).trans ((tail_eq _ (c_eq _)).trans (congrArg tail (cost_eq _))),
        (h c main_arg0).trans ((arg0_T _).trans (arg0_A _)),
        (h c main_arg1).trans ((arg1_T _).trans (arg1_A _)),
        (h c main_arg2).trans ((arg2_T _).trans (arg2_A _))⟩)
    (run_main m ρ)

end Cert.PitLoss.Ref

end
-- ==== Proof.RefValue.lean ====
/-
  The reference's composed cost matrix is the specification's, entry by entry.

  At entry (b, i, j) the sum over axis 1 of the 64x8000x4x4 array of masked frame losses is the sum over the
  8000 frames t of its element at (b, t, i, j); there each broadcast reads its operand at the coordinates it
  keeps, softplus's guard z ≠ z is false over the extended reals so its select takes the second branch,
  z - 0 = z, -(-z) = z, and the sums start from 0.
-/
import proofs.«154880_j77919296684577_2_alg».proof.Proof.CostTerm
import proofs.«154880_j77919296684577_2_alg».proof.Proof.Spec
import proofs.«154880_j77919296684577_2_alg».proof.Proof.RefRun
import Idealize.ShloMosaic.PureOps.Ideal.Laws
import Idealize.ShloMosaic.Lib.ValueIdx
import Idealize.ShloMosaic.Lib.Pipeline.Value

noncomputable section

open scoped BigOperators

namespace Cert.PitLoss.Ref

open Idealize.ShloMosaic Idealize.ShloMosaic.ValueIdx Idealize.SL.Sem Cert.ReferenceIdeal Cert.ReferenceIdeal.Gen Cert.PitLoss

/-! ## softplus and log σ at an element -/

/-- Over the extended reals nothing differs from itself: the guard of softplus is 0. -/
theorem cmp_une_self (z : EReal) : Ideal.cmp .une z z = 0#1 := by
  unfold Ideal.cmp
  simp

theorem softplusT_apply (a : FVec Ideal S64x8000x4x1 .f32) (p : S64x8000x4x1.Idx) :
    softplusT a p = softplus (a p) := by
  have h : softplusT a p
      = Scalar.select (Ideal.cmp .une (a p - Ideal.ofBits .f32 0x00000000#32) (a p - Ideal.ofBits .f32 0x00000000#32))
          (a p + Ideal.ofBits .f32 0x00000000#32)
          (max (a p) (Ideal.ofBits .f32 0x00000000#32)
            + Ideal.log1p (Ideal.exp (-(max (a p - Ideal.ofBits .f32 0x00000000#32) (-(a p - Ideal.ofBits .f32 0x00000000#32)))))) := rfl
  rw [h, Ideal.ofBits_zero_f32, sub_zero, cmp_une_self, select_zero]
  rfl

theorem logSigT_apply (a : FVec Ideal S64x8000x4x1 .f32) (p : S64x8000x4x1.Idx) :
    logSigT a p = -(softplus (-(a p))) := by
  have h : logSigT a p = -(softplusT (Host.negf (F := Ideal) a) p) := rfl
  rw [h, softplusT_apply]
  rfl

/-! ## The broadcasts at an index -/

theorem bx_apply (a0 : FVec Ideal S64x8000x4 .f32) (b : Fin 64) (t : Fin 8000) (i : Fin 4) (z : Fin 1) :
    broadcastInDim S64x8000x4x1 ![0, 1, 2] bcast_S64x8000x4_S64x8000x4x1_0_1_2 a0 (ix4 b t i z) = a0 (ix3 b t i) :=
  broadcastInDim_apply _ _ _ _ _ fun a => match a with
    | ⟨0, _⟩ => rfl | ⟨1, _⟩ => rfl | ⟨2, _⟩ => rfl

theorem by_apply (a1 : FVec Ideal S64x8000x4 .f32) (b : Fin 64) (t : Fin 8000) (z : Fin 1) (j : Fin 4) :
    broadcastInDim S64x8000x1x4 ![0, 1, 3] bcast_S64x8000x4_S64x8000x1x4_0_1_3 a1 (ix4 b t z j) = a1 (ix3 b t j) :=
  broadcastInDim_apply _ _ _ _ _ fun a => match a with
    | ⟨0, _⟩ => rfl | ⟨1, _⟩ => rfl | ⟨2, _⟩ => rfl

theorem bw_apply (a2 : FVec Ideal S64x8000 .f32) (b : Fin 64) (t : Fin 8000) (z z' : Fin 1) :
    broadcastInDim S64x8000x1x1 ![0, 1] bcast_S64x8000_S64x8000x1x1_0_1 a2 (ix4 b t z z') = a2 (ix2 b t) :=
  broadcastInDim_apply _ _ _ _ _ fun a => match a with
    | ⟨0, _⟩ => rfl | ⟨1, _⟩ => rfl

theorem b14_apply (v : FVec Ideal S64x8000x1x4 .f32) (b : Fin 64) (t : Fin 8000) (i j : Fin 4) :
    broadcastInDim S64x8000x4x4 ![0, 1, 2, 3] bcast_S64x8000x1x4_S64x8000x4x4_0_1_2_3 v (ix4 b t i j) = v (ix4 b t 0 j) :=
  broadcastInDim_apply _ _ _ _ _ fun a => match a with
    | ⟨0, _⟩ => rfl | ⟨1, _⟩ => rfl | ⟨2, _⟩ => rfl | ⟨3, _⟩ => rfl

theorem b41_apply (v : FVec Ideal S64x8000x4x1 .f32) (b : Fin 64) (t : Fin 8000) (i j : Fin 4) :
    broadcastInDim S64x8000x4x4 ![0, 1, 2, 3] bcast_S64x8000x4x1_S64x8000x4x4_0_1_2_3 v (ix4 b t i j) = v (ix4 b t i 0) :=
  broadcastInDim_apply _ _ _ _ _ fun a => match a with
    | ⟨0, _⟩ => rfl | ⟨1, _⟩ => rfl | ⟨2, _⟩ => rfl | ⟨3, _⟩ => rfl

theorem b11_apply (v : FVec Ideal S64x8000x1x1 .f32) (b : Fin 64) (t : Fin 8000) (i j : Fin 4) :
    broadcastInDim S64x8000x4x4 ![0, 1, 2, 3] bcast_S64x8000x1x1_S64x8000x4x4_0_1_2_3 v (ix4 b t i j) = v (ix4 b t 0 0) :=
  broadcastInDim_apply _ _ _ _ _ fun a => match a with
    | ⟨0, _⟩ => rfl | ⟨1, _⟩ => rfl | ⟨2, _⟩ => rfl | ⟨3, _⟩ => rfl

/-! ## The masked frame loss at an index -/

theorem frameT_apply (a0 a1 : FVec Ideal S64x8000x4 .f32) (a2 : FVec Ideal S64x8000 .f32)
    (b : Fin 64) (t : Fin 8000) (i j : Fin 4) :
    frameT a0 a1 a2 (ix4 b t i j)
      = (-((posWeight * a1 (ix3 b t j)) * logSigPos (a0 (ix3 b t i))
            + (one32 - a1 (ix3 b t j)) * logSigNeg (a0 (ix3 b t i)))) * a2 (ix2 b t) := by
  -- the elementwise operations, read at the index
  have h : frameT a0 a1 a2 (ix4 b t i j)
      = (-(broadcastInDim S64x8000x4x4 ![0, 1, 2, 3] bcast_S64x8000x1x4_S64x8000x4x4_0_1_2_3
              (mulf (F := Ideal) (broadcastInDim S64x8000x1x4 ![] bcast_S_S64x8000x1x4 (constant (F := Ideal) S_ .f32 0x3FC00000#32))
                (broadcastInDim S64x8000x1x4 ![0, 1, 3] bcast_S64x8000x4_S64x8000x1x4_0_1_3 a1)) (ix4 b t i j)
            * broadcastInDim S64x8000x4x4 ![0, 1, 2, 3] bcast_S64x8000x4x1_S64x8000x4x4_0_1_2_3
              (logSigT (broadcastInDim S64x8000x4x1 ![0, 1, 2] bcast_S64x8000x4_S64x8000x4x1_0_1_2 a0)) (ix4 b t i j)
          + broadcastInDim S64x8000x4x4 ![0, 1, 2, 3] bcast_S64x8000x1x4_S64x8000x4x4_0_1_2_3
              (subf (F := Ideal) (broadcastInDim S64x8000x1x4 ![] bcast_S_S64x8000x1x4 (constant (F := Ideal) S_ .f32 0x3F800000#32))
                (broadcastInDim S64x8000x1x4 ![0, 1, 3] bcast_S64x8000x4_S64x8000x1x4_0_1_3 a1)) (ix4 b t i j)
            * broadcastInDim S64x8000x4x4 ![0, 1, 2, 3] bcast_S64x8000x4x1_S64x8000x4x4_0_1_2_3
              (logSigT (Host.negf (F := Ideal) (broadcastInDim S64x8000x4x1 ![0, 1, 2] bcast_S64x8000x4_S64x8000x4x1_0_1_2 a0))) (ix4 b t i j)))
        * broadcastInDim S64x8000x4x4 ![0, 1, 2, 3] bcast_S64x8000x1x1_S64x8000x4x4_0_1_2_3
            (broadcastInDim S64x8000x1x1 ![0, 1] bcast_S64x8000_S64x8000x1x1_0_1 a2) (ix4 b t i j) := rfl
  rw [h, b14_apply, b41_apply, b14_apply, b41_apply, b11_apply, bw_apply, logSigT_apply, logSigT_apply]
  -- the products of broadcasts and the negated logits, read at the index
  have h3 : mulf (F := Ideal) (broadcastInDim S64x8000x1x4 ![] bcast_S_S64x8000x1x4 (constant (F := Ideal) S_ .f32 0x3FC00000#32))
        (broadcastInDim S64x8000x1x4 ![0, 1, 3] bcast_S64x8000x4_S64x8000x1x4_0_1_3 a1) (ix4 b t 0 j)
      = posWeight * broadcastInDim S64x8000x1x4 ![0, 1, 3] bcast_S64x8000x4_S64x8000x1x4_0_1_3 a1 (ix4 b t 0 j) := rfl
  have h9 : subf (F := Ideal) (broadcastInDim S64x8000x1x4 ![] bcast_S_S64x8000x1x4 (constant (F := Ideal) S_ .f32 0x3F800000#32))
        (broadcastInDim S64x8000x1x4 ![0, 1, 3] bcast_S64x8000x4_S64x8000x1x4_0_1_3 a1) (ix4 b t 0 j)
      = one32 - broadcastInDim S64x8000x1x4 ![0, 1, 3] bcast_S64x8000x4_S64x8000x1x4_0_1_3 a1 (ix4 b t 0 j) := rfl
  have h10 : Host.negf (F := Ideal) (broadcastInDim S64x8000x4x1 ![0, 1, 2] bcast_S64x8000x4_S64x8000x4x1_0_1_2 a0) (ix4 b t i 0)
      = -(broadcastInDim S64x8000x4x1 ![0, 1, 2] bcast_S64x8000x4_S64x8000x4x1_0_1_2 a0 (ix4 b t i 0)) := rfl
  rw [h3, h9, h10, by_apply, bx_apply, neg_neg]
  rfl

/-! ## The sums over the frames -/

/-- The frame axis of the 64x8000x4x4 array summed away. -/
theorem reduces4 : S64x8000x4x4.Reduces [1] S64x4x4 := by decide
/-- The frame axis of the mask summed away. -/
theorem reduces2 : S64x8000.Reduces [1] S64 := by decide

theorem lift4_eq (q : S64x4x4.Idx) (t : Fin 8000) : reduces4.lift q t = ix4 (q 0) t (q 1) (q 2) :=
  funext fun a => match a with
    | ⟨0, _⟩ => Fin.ext rfl | ⟨1, _⟩ => Fin.ext rfl | ⟨2, _⟩ => Fin.ext rfl | ⟨3, _⟩ => Fin.ext rfl

theorem lift2_eq (b : Fin 64) (t : Fin 8000) : reduces2.lift (ix1 b) t = ix2 b t :=
  funext fun a => match a with
    | ⟨0, _⟩ => Fin.ext rfl | ⟨1, _⟩ => Fin.ext rfl

theorem num_apply (a0 a1 : FVec Ideal S64x8000x4 .f32) (a2 : FVec Ideal S64x8000 .f32) (q : S64x4x4.Idx) :
    Ideal.hostReduceAdd reducesTo_S64x8000x4x4_S64x4x4_d1 (frameT a0 a1 a2) (Ideal.ofBits .f32 0x00000000#32) q
      = ∑ t : Fin 8000,
          (-((posWeight * a1 (ix3 (q 0) t (q 2))) * logSigPos (a0 (ix3 (q 0) t (q 1)))
              + (one32 - a1 (ix3 (q 0) t (q 2))) * logSigNeg (a0 (ix3 (q 0) t (q 1))))) * a2 (ix2 (q 0) t) := by
  rw [Ideal.hostReduceAdd_single _ reduces4, Ideal.ofBits_zero_f32, zero_add]
  refine Finset.sum_congr rfl fun t _ => ?_
  exact (congrArg (frameT a0 a1 a2) (lift4_eq q t)).trans (frameT_apply a0 a1 a2 (q 0) t (q 1) (q 2))

/-- The mask's count per row from 0, clamped below by one. -/
def cntT (a2 : FVec Ideal S64x8000 .f32) : FVec Ideal S64 .f32 :=
  maximumf (F := Ideal) (broadcastInDim S64 ![] bcast_S_S64 (constant (F := Ideal) S_ .f32 0x3F800000#32))
    (Host.reduceAdd (F := Ideal) a2 (constant (F := Ideal) S_ .f32 0x00000000#32) reducesTo_S64x8000_S64_d1 h_S_)

theorem denomT_def (a2 : FVec Ideal S64x8000 .f32) :
    denomT a2 = broadcastInDim S64x4x4 ![0, 1, 2] bcast_S64x1x1_S64x4x4_0_1_2
      (broadcastInDim S64x1x1 ![0] bcast_S64_S64x1x1_0 (cntT a2)) := rfl

theorem cntT_apply (a2 : FVec Ideal S64x8000 .f32) (b : Fin 64) :
    cntT a2 (ix1 b) = max one32 (∑ t : Fin 8000, a2 (ix2 b t)) := by
  have h : cntT a2 (ix1 b)
      = max one32 (Ideal.hostReduceAdd reducesTo_S64x8000_S64_d1 a2 (Ideal.ofBits .f32 0x00000000#32) (ix1 b)) := rfl
  rw [h, Ideal.hostReduceAdd_single _ reduces2, Ideal.ofBits_zero_f32, zero_add]
  exact congrArg (max one32) (Finset.sum_congr rfl fun t _ => congrArg a2 (lift2_eq b t))

theorem denomT_apply (a2 : FVec Ideal S64x8000 .f32) (q : S64x4x4.Idx) :
    denomT a2 q = max one32 (∑ t : Fin 8000, a2 (ix2 (q 0) t)) := by
  rw [denomT_def]
  refine (broadcastInDim_apply _ _ _ q (ix3 (q 0) 0 0) fun a => match a with
    | ⟨0, _⟩ => rfl | ⟨1, _⟩ => rfl | ⟨2, _⟩ => rfl).trans ?_
  refine (broadcastInDim_apply _ _ _ (ix3 (q 0) 0 0) (ix1 (q 0)) fun a => match a with
    | ⟨0, _⟩ => rfl).trans ?_
  exact cntT_apply a2 (q 0)

/-! ## The cost matrix -/

/-- The composed term of the reference's first 64 operations is the specification's cost matrix. -/
theorem costTerm_eq (a0 a1 : FVec Ideal S64x8000x4 .f32) (a2 : FVec Ideal S64x8000 .f32) :
    costTerm a0 a1 a2 = costRef a0 a1 a2 := by
  funext q
  have h : costTerm a0 a1 a2 q
      = Ideal.div (Ideal.hostReduceAdd reducesTo_S64x8000x4x4_S64x4x4_d1 (frameT a0 a1 a2) (Ideal.ofBits .f32 0x00000000#32) q)
          (denomT a2 q) := rfl
  rw [h, num_apply, denomT_apply]
  rfl

/-- On every device, from any memory with zero counters: every weakly fair execution of the reference terminates with the
    result at the permutation search of the specification's cost matrix of the arguments' launch contents, the
    arguments unchanged. -/
theorem run_spec (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v48)
        = tail (costRef (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2)))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run _ _ _).mono (fun _ h c => ⟨(h c).1.trans (congrArg tail (costTerm_eq _ _ _)), (h c).2⟩) (run m ρ)

end Cert.PitLoss.Ref

end
-- ==== Proof.Bridge.lean ====
/-
  The two arrangements of the masked cross-entropy cost are one extended real when every input is a real number.

  With real inputs, `log σ(±x)` is a real number: `e^(-|x|)` is a positive real, so `1 + e^(-|x|) > 0` and its
  logarithm is the real logarithm. The two literals denote the reals `3/2` and `1`. Both numerators are then
  images of real numbers, and in ℝ

    -((c·Σ (P_t·w_t)·y_t + Σ N_t·w_t) - Σ (N_t·w_t)·y_t)  =  Σ_t -((c·y_t)·P_t + (1 - y_t)·N_t)·w_t

  term by term. The sum over the 8000 frames is the double sum over 8 chunks of 1000 offsets, because
  `(k, r) ↦ 1000·k + r` is a bijection `Fin 8 × Fin 1000 ≃ Fin 8000`; this holds in any commutative additive monoid,
  so the denominators `max(1, Σ w)` agree with no finiteness at all.
-/
import proofs.«154880_j77919296684577_2_alg».proof.Proof.Spec

noncomputable section

open scoped BigOperators

namespace Cert.PitLoss

open Idealize.ShloMosaic Idealize.ShloMosaic.ValueIdx

/-! ### Re-indexing the frames -/

/-- `(k, r) ↦ 1000·k + r` is a bijection; its inverse is `t ↦ (t / 1000, t % 1000)`. -/
def frameEquiv : Fin 8 × Fin 1000 ≃ Fin 8000 where
  toFun p := frame p.1 p.2
  invFun t := (⟨t.val / 1000, by omega⟩, ⟨t.val % 1000, by omega⟩)
  left_inv p := by
    obtain ⟨⟨k, hk⟩, ⟨r, hr⟩⟩ := p
    simp only [frame, Prod.mk.injEq, Fin.mk.injEq]
    omega
  right_inv t := by
    obtain ⟨t, ht⟩ := t
    simp only [frame, Fin.mk.injEq]
    omega

/-- A sum over the 8000 frames is the sum over the chunks of the sums over the offsets. -/
theorem sum_frame {M : Type*} [AddCommMonoid M] (f : Fin 8000 → M) :
    ∑ t, f t = ∑ k : Fin 8, ∑ r : Fin 1000, f (frame k r) := by
  rw [← Fintype.sum_prod_type']
  exact (Equiv.sum_comp frameEquiv f).symm

/-! ### Real numbers inside the extended reals -/

/-- The inclusion of ℝ commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of ℝ is monotone, so it commutes with `max`. -/
theorem coe_max (a b : ℝ) : ((max a b : ℝ) : EReal) = max (a : EReal) (b : EReal) :=
  EReal.coe_strictMono.monotone.map_max

/-- The pattern `0x3FC00000` denotes `3/2`. -/
theorem posWeight_eq : posWeight = ((3 / 2 : ℝ) : EReal) := by
  simp [posWeight, Ideal.ofBits, Ideal.ieee, -EReal.coe_mul]; norm_num

/-- The pattern `0x3F800000` denotes `1`. -/
theorem one32_eq : one32 = ((1 : ℝ) : EReal) := by
  simp [one32, Ideal.ofBits, Ideal.ieee, -EReal.coe_mul]; norm_num

/-- `softplus` of a real is a real: `1 + e^(-|r|) > 0`, so the logarithm is the real one. -/
theorem softplus_coe (r : ℝ) :
    softplus (r : EReal) = ((max r 0 + Real.log (1 + Real.exp (-(max r (-r)))) : ℝ) : EReal) := by
  have hpos : ¬ (1 + Real.exp (-(max r (-r))) ≤ 0) := by
    have := Real.exp_pos (-(max r (-r)))
    linarith
  unfold softplus Ideal.log1p
  rw [← EReal.coe_neg, ← coe_max, ← EReal.coe_neg, Ideal.exp_coe, ← EReal.coe_one, ← EReal.coe_add,
    Ideal.log_coe, if_neg hpos, ← EReal.coe_zero, ← coe_max, ← EReal.coe_add]

/-- `softplus` on the reals: `max(r, 0) + log(1 + e^(-|r|))`. -/
def spR (r : ℝ) : ℝ := max r 0 + Real.log (1 + Real.exp (-(max r (-r))))

/-- `log σ(r) = -softplus(-r)` is a real. -/
theorem logSigPos_coe (r : ℝ) : logSigPos (r : EReal) = ((-(spR (-r)) : ℝ) : EReal) := by
  unfold logSigPos
  rw [← EReal.coe_neg, softplus_coe, ← EReal.coe_neg]
  rfl

/-- `log σ(-r) = -softplus(r)` is a real. -/
theorem logSigNeg_coe (r : ℝ) : logSigNeg (r : EReal) = ((-(spR r) : ℝ) : EReal) := by
  unfold logSigNeg
  rw [softplus_coe, ← EReal.coe_neg]
  rfl

/-! ### The identity -/

/-- In ℝ: the three accumulated sums, combined, are the sum of the masked losses. Term by term,
    `-(c·(P·w)·y + N·w - (N·w)·y) = -((c·y)·P + (1 - y)·N)·w`. -/
theorem real_identity (c : ℝ) (P N Y W : Fin 8000 → ℝ) :
    -((c * ∑ t, (P t * W t) * Y t + ∑ t, N t * W t) - ∑ t, (N t * W t) * Y t)
      = ∑ t, (-((c * Y t) * P t + (1 - Y t) * N t)) * W t := by
  rw [Finset.mul_sum, ← Finset.sum_add_distrib, ← Finset.sum_sub_distrib, ← Finset.sum_neg_distrib]
  exact Finset.sum_congr rfl (fun t _ => by ring)

/-- The same identity between the extended reals that real data give: re-index the three double sums
    to single sums over the frames, read the two literals as `3/2` and `1`, and pull the inclusion of ℝ
    outside, where the real identity applies. -/
theorem ereal_identity (P N Y W : Fin 8000 → ℝ) :
    -((posWeight * (∑ k : Fin 8, ∑ r : Fin 1000,
            ((P (frame k r) : EReal) * (W (frame k r) : EReal)) * (Y (frame k r) : EReal))
          + (∑ k : Fin 8, ∑ r : Fin 1000, (N (frame k r) : EReal) * (W (frame k r) : EReal)))
        - (∑ k : Fin 8, ∑ r : Fin 1000,
            ((N (frame k r) : EReal) * (W (frame k r) : EReal)) * (Y (frame k r) : EReal)))
      = ∑ t : Fin 8000,
          (-((posWeight * (Y t : EReal)) * (P t : EReal) + (one32 - (Y t : EReal)) * (N t : EReal))) * (W t : EReal) := by
  rw [← sum_frame (fun t => ((P t : EReal) * (W t : EReal)) * (Y t : EReal)),
    ← sum_frame (fun t => (N t : EReal) * (W t : EReal)),
    ← sum_frame (fun t => ((N t : EReal) * (W t : EReal)) * (Y t : EReal)),
    posWeight_eq, one32_eq]
  simp only [← EReal.coe_mul, ← EReal.coe_add, ← EReal.coe_sub, ← EReal.coe_neg, ← coe_sum]
  rw [real_identity]

/-- On real inputs the two cost matrices are equal: equal denominators by re-indexing, equal numerators by
    the identity above with `P = log σ(x)`, `N = log σ(-x)`. -/
theorem cost_eq (x y : FVec Ideal SX .f32) (w : FVec Ideal SM .f32)
    (hx : Finite x) (hy : Finite y) (hw : Finite w) : costKer x y w = costRef x y w := by
  funext q
  unfold costKer costRef
  rw [sum_frame (fun t => w (ix2 (q 0) t))]
  congr 1
  choose X hX using hx
  choose Y hY using hy
  choose W hW using hw
  simp only [hX, hY, hW, logSigPos_coe, logSigNeg_coe]
  exact ereal_identity (fun t => -(spR (-(X (ix3 (q 0) t (q 1)))))) (fun t => -(spR (X (ix3 (q 0) t (q 1)))))
    (fun t => Y (ix3 (q 0) t (q 2))) (fun t => W (ix2 (q 0) t))

end Cert.PitLoss

end
-- ==== Proof.FiniteIn.lean ====
/-
  What the precondition says: every entry of the three inputs is a real number.

  The precondition is the conjunction of three tests `all(|a| < +∞)`, one per input, and it is assumed true.
  A conjunction of truth values is true only when both are; an `all` that is true had a true element at every
  index; and `|x| = max(x, -x) < +∞` fails at both infinities (`max(⊥, ⊤) = max(⊤, ⊥) = ⊤`), so it leaves the reals.
-/
import proofs.«154880_j77919296684577_2_alg».proof.Pre_finite_inputs
import proofs.«154880_j77919296684577_2_alg».proof.Proof.Spec
import Idealize.ShloMosaic.Lib.ReduceAll

noncomputable section

namespace Cert.PitLoss

open Idealize.ShloMosaic Idealize.ShloMosaic.ValueIdx

/-- The shape of a scalar has exactly one index. -/
instance : Subsingleton Cert.Pre_finite_inputs.S_.Idx := ⟨fun a b => funext fun d => d.elim0⟩

/-- The pattern `0x7F800000` denotes `+∞`. -/
theorem inf_eq_top : Ideal.ofBits .f32 0x7F800000#32 = (⊤ : EReal) := by
  simp [Ideal.ofBits, Ideal.ieee]

/-- `|x| < +∞` holds of no infinity: an extended real whose absolute value `max x (-x)` is below `⊤` is a real. -/
theorem real_of_abs_lt_top (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  change Ideal.cmp .olt (max x (-x)) (Ideal.ofBits .f32 0x7F800000#32) = 1#1 at h
  rw [inf_eq_top] at h
  induction x using EReal.rec with
  | bot => simp [Ideal.cmp] at h
  | coe r => exact ⟨r, rfl⟩
  | top => simp [Ideal.cmp] at h

/-- `all(|a| < +∞)` being true makes every entry of `a` a real. -/
theorem finite_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (j : Cert.Pre_finite_inputs.S_.Idx)
    (e : Host.reduce IntOp.andi
          (cmpf .olt (Host.absf a) (broadcastInDim s ![] hb (constant Cert.Pre_finite_inputs.S_ .f32 0x7F800000#32)))
          (constantI Cert.Pre_finite_inputs.S_ 1 1#1) hr hu j = 1#1) : Finite a := by
  intro i
  exact real_of_abs_lt_top (a i) (Host.reduce_andi_all _ _ hr hu j e i)

/-- The precondition, true, makes all three inputs arrays of reals. -/
theorem finite_of_pre [Cert.Pre_finite_inputs.Facts]
    (a0 a1 : FVec Ideal Cert.Pre_finite_inputs.S64x8000x4 .f32) (a2 : FVec Ideal Cert.Pre_finite_inputs.S64x8000 .f32)
    (h : Cert.Pre_finite_inputs.fn (F := Ideal) a0 a1 a2 = fun _ => 1#1) : Finite a0 ∧ Finite a1 ∧ Finite a2 := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  exact ⟨finite_of_all a0 _ _ _ _ h0', finite_of_all a1 _ _ _ _ h1, finite_of_all a2 _ _ _ _ h2⟩

end Cert.PitLoss

end
-- ==== Proof.lean ====
/-
  A kernel for the permutation-invariant training loss against its jnp reference, over the extended reals.

  Inputs: logits x and targets y of shape [64, 8000, 4], a mask w of shape [64, 8000]; all entries finite.
  Both programs first form a cost matrix cost[b, i, j] — the masked binary cross-entropy, with positive-class weight
  1.5, of logit column i against target column j, summed over the 8000 frames and divided by max(1, Σ_t w[b, t]) — and
  then take the mean over the batch of the least, over the 24 permutations p of the four columns, of the mean over r
  of cost[b, r, p(r)]. The second part is the same sequence of operations in both programs and is carried as one
  function (Tail.lean); the proof is about the cost matrix.

  The reference sums, frame by frame, (-((1.5 · y_j) · log σ(x_i) + (1 - y_j) · log σ(-x_i))) · w over the 8000 frames
  (`costRef`, Spec.lean). The kernel works on blocks of 8 batch rows; in a loop over 8 chunks of 1000 frames it
  accumulates S1 = Σ (log σ(x_i) · w) · y_j, S2 = Σ log σ(-x_i) · w, S3 = Σ (log σ(-x_i) · w) · y_j and M = Σ w, and
  stores -((1.5 · S1 + S2) - S3) / max(1, M) (`costKer`). With every entry a real number, log σ(±x) are real numbers
  as well, and the two arrangements agree by distributing the product over the sum and splitting the 8000 frames
  into 8 × 1000 (Bridge.lean); that every entry is a real number is what the precondition says (FiniteIn.lean).

  The kernel's side: one trip of the loop as a pure function of its three loads, read at an index (Trip.lean); the 8
  trips (Loop.lean); the stored block (Block.lean); the blocks cover the cost array, and the operations after the
  region are the search (KerArray.lean, KerTail.lean, KerRun.lean). The reference's side: its run, its private
  functions' operations listed at their call sites (RefOps.lean, RefRun.lean), and its composed term read at an index
  (CostTerm.lean, RefValue.lean). The kernel program is its own idealization: no operation was rewritten.
-/
import proofs.«154880_j77919296684577_2_alg».proof.Defs
import proofs.«154880_j77919296684577_2_alg».proof.Proof.Gen.Kernel
import proofs.«154880_j77919296684577_2_alg».proof.Proof.Gen.Kernel.Frame
import proofs.«154880_j77919296684577_2_alg».proof.Proof.Gen.KernelIdeal
import proofs.«154880_j77919296684577_2_alg».proof.Proof.Gen.KernelIdeal.Frame
import proofs.«154880_j77919296684577_2_alg».proof.Proof.Gen.ReferenceIdeal
import proofs.«154880_j77919296684577_2_alg».proof.Proof.Gen.Pre_finite_inputs
import proofs.«154880_j77919296684577_2_alg».proof.Proof.Block
import proofs.«154880_j77919296684577_2_alg».proof.Proof.KerRun
import proofs.«154880_j77919296684577_2_alg».proof.Proof.RefValue
import proofs.«154880_j77919296684577_2_alg».proof.Proof.Bridge
import proofs.«154880_j77919296684577_2_alg».proof.Proof.FiniteIn
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- And the reference: its run, with the result dropped. -/
theorem frame_referenceIdeal : Cert.frame_ReferenceIdeal := fun m ρ _ =>
  (θ_run Cert.ReferenceIdeal.defs _ _).mono (fun _ h c => (h c).2) (Cert.PitLoss.Ref.run_spec m ρ)

/-- Over the extended reals, from memories that agree on the three arguments, both programs end at the permutation
    search of one cost matrix: the kernel's arrangement of it and the reference's are equal because every entry of
    the arguments is a real number. -/
theorem algebraic : Cert.algebraic_KernelIdeal_ReferenceIdeal := by
  intro m ρ m' ρ' hpre hagree
  refine ⟨_, Cert.PitLoss.Ker.run_spec Cert.PitLoss.Ker.block_eq m ρ, ?_⟩
  refine (θ_run Cert.ReferenceIdeal.defs _ _).mono (fun _ h c => ⟨(h c).1.trans ?_, (h c).2⟩)
    (Cert.PitLoss.Ref.run_spec m' ρ')
  rw [(hagree c).1, (hagree c).2.1, (hagree c).2.2]
  obtain ⟨h0, h1, h2⟩ := Cert.PitLoss.finite_of_pre _ _ _ (hpre c)
  exact congrArg Cert.PitLoss.Ref.tail (Cert.PitLoss.cost_eq _ _ _ h0 h1 h2).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
